-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x64, .f32⟩
  | .hbm, ⟨103, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its RESULT named.

  @main is nine segments: three stretches of host operations (the edge lists with self-loops, the
  in-degrees, the symmetric normalisation 1/sqrt(deg row) * 1/sqrt(deg col)), the first matrix
  product, a stretch (gather the rows of the product along the edges, scale, scatter-add into the
  target rows), bias + relu, the second matrix product, the same gather / scale / scatter-add stretch,
  and bias + log-softmax.  The contents of every unscoped buffer at each segment boundary are a fold
  from the launch memory (the boundary valuations `W0 … W9` of the frame module).  Here the launch over the
  segments is read once more against the final state, this time keeping what the result buffer holds:
  the last boundary's contents `W9` at it.  The arguments end as launched.
-/
import proofs.«126463_j28681791603309_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and every argument array as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Result

end
-- ==== Proof.FirstProduct.lean ====
/-
  The first kernel: the product of the 100000 × 256 features with the 256 × 128 weights, 5000 rows at a grid point.

  At a point the body multiplies its 5000 × 256 block of rows by the whole 256 × 128 weight matrix into a zero accumulator
  (the two factors first change float format, which is the identity on the extended reals).  A row of the result depends
  on that row of the block only, and the 20 blocks tile the rows, so the array ends holding the whole product.
-/
import proofs.«126463_j28681791603309_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.FirstProduct

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The product of a 100000 × 256 matrix with a 256 × 128 matrix: entry (r, q) is Σ_k x (r, k) · w (k, q). -/
def matProd (x : S100000x256.Idx → EReal) (w : S256x128.Idx → EReal) : S100000x128.Idx → EReal :=
  fun i => ∑ k : Fin 256, x (ix2 (n0 := 100000) (n1 := 256) (i 0) k) * w (ix2 (n0 := 256) (n1 := 128) k (i 1))

/-- The body's matrix product of a 5000 × 256 block with the 256 × 128 weights. -/
abbrev blockDot : DotDims S5000x256 S256x128 S5000x128 := dot_S5000x256_S256x128_S5000x128_1_0_0_1_n_n

/-- The left factor's row is the result's row … -/
theorem lhs_row (i : S5000x128.Idx) (q : blockDot.contr.Idx) : (blockDot.lhsIdx i q 0).val = (i 0).val := by
  unfold DotDims.lhsIdx
  rw [dif_neg (show ¬(0 : Fin S5000x256.rank) ∈ blockDot.lhsBatch by decide),
    dif_pos (show (0 : Fin S5000x256.rank) ∈ blockDot.lhsNonContracting by decide)]
  rfl
/-- … its column the contracted index … -/
theorem lhs_col (i : S5000x128.Idx) (q : blockDot.contr.Idx) : (blockDot.lhsIdx i q 1).val = (q ⟨0, by decide⟩).val :=
  blockDot.lhsIdx_val_of_single rfl i q
/-- … which is the right factor's row … -/
theorem rhs_row (i : S5000x128.Idx) (q : blockDot.contr.Idx) : (blockDot.rhsIdx i q 0).val = (q ⟨0, by decide⟩).val :=
  blockDot.rhsIdx_val_of_single rfl i q
/-- … and the right factor's column is the result's column. -/
theorem rhs_col (i : S5000x128.Idx) (q : blockDot.contr.Idx) : (blockDot.rhsIdx i q 1).val = (i 1).val := by
  unfold DotDims.rhsIdx
  rw [dif_neg (show ¬(1 : Fin S256x128.rank) ∈ blockDot.rhsBatch by decide),
    dif_pos (show (1 : Fin S256x128.rank) ∈ blockDot.rhsNonContracting by decide)]
  rfl

/-- The body's stored value at row p, column q of its block: Σ_k block (p, k) · weights (k, q) — the change of float
    format in front of the product is the identity on the extended reals, and the accumulator starts at zero. -/
theorem stored_apply (x0 : Vec Ideal S5000x256 .f32) (x1 : Vec Ideal S256x128 .f32) (p : Fin 5000) (q : Fin 128) :
    k0_pay1 x0 x1 (ix2 p q)
      = ∑ k : Fin 256, x0 (ix2 (n0 := 5000) (n1 := 256) p k) * x1 (ix2 (n0 := 256) (n1 := 128) k q) := by
  unfold k0_pay1
  simp only [matmul]
  rw [Ideal.matmul_constant_zero_apply, ← Equiv.sum_comp (ValueIdx.contrEquiv1 blockDot 256 rfl rfl).symm]
  refine Finset.sum_congr rfl fun k _ => ?_
  have hk := ValueIdx.contrEquiv1_symm_val blockDot 256 rfl rfl k
  have el : blockDot.lhsIdx (ix2 p q) ((ValueIdx.contrEquiv1 blockDot 256 rfl rfl).symm k)
      = ix2 (n0 := 5000) (n1 := 256) p k := funext fun a => Fin.ext (by
    match a with
    | ⟨0, _⟩ => exact lhs_row _ _
    | ⟨1, _⟩ => exact (lhs_col _ _).trans hk)
  have er : blockDot.rhsIdx (ix2 p q) ((ValueIdx.contrEquiv1 blockDot 256 rfl rfl).symm k)
      = ix2 (n0 := 256) (n1 := 128) k q := funext fun a => Fin.ext (by
    match a with
    | ⟨0, _⟩ => exact (rhs_row _ _).trans hk
    | ⟨1, _⟩ => exact rhs_col _ _)
  rw [el, er]
  rfl

/-- The same at any index of the block. -/
theorem stored_at (x0 : Vec Ideal S5000x256 .f32) (x1 : Vec Ideal S256x128 .f32) (y : S5000x128.Idx) :
    k0_pay1 x0 x1 y
      = ∑ k : Fin 256, x0 (ix2 (n0 := 5000) (n1 := 256) (y 0) k) * x1 (ix2 (n0 := 256) (n1 := 128) k (y 1)) :=
  (congrArg (k0_pay1 x0 x1) (eq_ix2 y)).trans (stored_apply x0 x1 (y 0) (y 1))

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left factor's and the result's blocks move down the rows with the point,
    the weights stay. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every block of rows is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the product of what the region found. -/
theorem flushed_eq (c : Dev nD) (t : Fin cfg0.N) :
    (dat0 V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  show k0_pay1 (iblk0 V c 0 t) (iblk0 V c 1 t) j
      = matProd (V c main_arg0) (V c main_arg2) (((cfg0.win 2).blk t).view.emb j)
  refine (stored_at _ _ j).trans ?_
  unfold matProd
  refine Finset.sum_congr rfl fun k _ => congrArg₂ (fun u v : EReal => u * v) ?_ ?_
  · show V c main_arg0 (((cfg0.win 0).blk t).view.emb (ix2 (n0 := 5000) (n1 := 256) (j 0) k)) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 256 + 1 * k.val = k.val
      omega
  · show V c main_arg2 (((cfg0.win 1).blk t).view.emb (ix2 (n0 := 256) (n1 := 128) k (j 1))) = _
    refine congrArg (V c main_arg2) (funext fun a => Fin.ext ?_)
    match a with
    | ⟨0, _⟩ =>
      show win0_1.index t (0 : Fin 2) * 256 + 1 * k.val = k.val
      omega
    | ⟨1, _⟩ =>
      show win0_1.index t (1 : Fin 2) * 128 + 1 * (j 1).val = win0_2.index t (1 : Fin 2) * 128 + 1 * (j 1).val
      omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every row of the array is in the block of the point numbered by its row / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The array after the region: the product of the two matrices the region found. -/
theorem final (c : Dev nD) :
    (dat0 V c).arrAt 2 cfg0.N = matProd (V c main_arg0) (V c main_arg2) :=
  (dat0 V c).arrAt_eq_of_cover 2 _ (fun t _ => flushed_eq V c t) cover

end Cert.KernelIdeal.FirstProduct

end
-- ==== Proof.BiasReluRegion.lean ====
/-
  The second kernel: bias + relu over the rows of a 100000 × 128 matrix, 5000 rows at a grid point.

  At a point the body adds the 1 × 128 bias to every row of its 5000 × 128 block and takes the maximum with zero, entry
  by entry.  An entry of the result depends on that entry of the block and on the bias at its column, and the 20 blocks
  tile the rows of the array, so the array ends holding max (matrix + bias, 0) — whatever the region found in its two
  operands.
-/
import proofs.«126463_j28681791603309_1_alg».proof.Proof.Gen.KernelIdeal.Frame
import Idealize.ShloMosaic.Lib.ValueIdx
import Idealize.ShloMosaic.Lib.Pipeline.Value
import Idealize.ShloMosaic.Lib.ValueLayout

set_option maxRecDepth 16384

noncomputable section

namespace Cert.KernelIdeal.BiasReluRegion

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- max (matrix + bias, 0): the 1 × 128 bias added to every row, then the maximum with the constant zero. -/
def biasRelu (a : S100000x128.Idx → EReal) (b : S1x128.Idx → EReal) : S100000x128.Idx → EReal :=
  fun i => max (a i + b (ix2 (n0 := 1) (n1 := 128) 0 (i 1))) (Ideal.ofBits .f32 0x00000000#32)

/-- The body's stored value at row p, column q of its block. -/
theorem stored_apply (x0 : Vec Ideal S5000x128 .f32) (x1 : Vec Ideal S1x128 .f32) (p : Fin 5000) (q : Fin 128) :
    k1_pay1 x0 x1 (ix2 p q)
      = max (x0 (ix2 p q) + x1 (ix2 (n0 := 1) (n1 := 128) 0 q)) (Ideal.ofBits .f32 0x00000000#32) := by
  unfold k1_pay1
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [shapeCast_self, broadcastTo_1b_ab_apply, shapeCast_self]

/-- The same at any index of the block. -/
theorem stored_at (x0 : Vec Ideal S5000x128 .f32) (x1 : Vec Ideal S1x128 .f32) (y : S5000x128.Idx) :
    k1_pay1 x0 x1 y
      = max (x0 y + x1 (ix2 (n0 := 1) (n1 := 128) 0 (y 1))) (Ideal.ofBits .f32 0x00000000#32) :=
  (congrArg (k1_pay1 x0 x1) (eq_ix2 y)).trans ((stored_apply x0 x1 (y 0) (y 1)).trans
    (congrArg (fun z : S5000x128.Idx => max (x0 z + x1 (ix2 (n0 := 1) (n1 := 128) 0 (y 1))) (Ideal.ofBits .f32 0x00000000#32))
      (eq_ix2 y).symm))

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the matrix's and the result's blocks move down the rows with the point, the
    bias stays. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 19
    ∧ win1_2.index t (1 : Fin 2) = 0 :=
  (by decide +kernel : ∀ t : Fin grid1.N, _)

/-- Every block of rows is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

/-- What point `t` writes back is block `t` of max (matrix + bias, 0) of what the region found. -/
theorem flushed_eq (c : Dev nD) (t : Fin cfg1.N) :
    (dat1 V c).flushed 2 t
      = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (iblk1 V c 0 t) (iblk1 V c 1 t) j
      = biasRelu (V c main_v43) (V c main_v44) (((cfg1.win 2).blk t).view.emb j)
  refine (stored_at _ _ j).trans ?_
  unfold biasRelu
  have ha : iblk1 V c 0 t j = V c main_v43 (((cfg1.win 2).blk t).view.emb j) := by
    show V c main_v43 (((cfg1.win 0).blk t).view.emb j) = _
    refine congrArg (V c main_v43) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  have hb : iblk1 V c 1 t (ix2 (n0 := 1) (n1 := 128) 0 (j 1))
      = V c main_v44 (ix2 (n0 := 1) (n1 := 128) 0 (((cfg1.win 2).blk t).view.emb j 1)) := by
    show V c main_v44 (((cfg1.win 1).blk t).view.emb (ix2 (n0 := 1) (n1 := 128) 0 (j 1))) = _
    refine congrArg (V c main_v44) (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = win1_2.index t (1 : Fin 2) * 128 + 1 * (j 1).val
      omega
  exact congrArg (fun u : EReal => max u (Ideal.ofBits .f32 0x00000000#32))
    (congrArg₂ (fun u v : EReal => u + v) ha hb)

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every row of the array is in the block of the point numbered by its row / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The array after the region: max (matrix + bias, 0) of what the region found. -/
theorem final (c : Dev nD) :
    (dat1 V c).arrAt 2 cfg1.N = biasRelu (V c main_v43) (V c main_v44) :=
  (dat1 V c).arrAt_eq_of_cover 2 _ (fun t _ => flushed_eq V c t) cover

end Cert.KernelIdeal.BiasReluRegion

end
-- ==== Proof.SecondProduct.lean ====
/-
  The third kernel: the product of the 100000 × 128 hidden features with the 128 × 64 weights, 5000 rows at a grid point.

  At a point the body multiplies its 5000 × 128 block of rows by the whole 128 × 64 weight matrix into a zero accumulator
  (the two factors first change float format, which is the identity on the extended reals).  A row of the result depends
  on that row of the block only, and the 20 blocks tile the rows, so the array ends holding the whole product.
-/
import proofs.«126463_j28681791603309_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.SecondProduct

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The product of a 100000 × 128 matrix with a 128 × 64 matrix: entry (r, q) is Σ_k x (r, k) · w (k, q). -/
def matProd (x : S100000x128.Idx → EReal) (w : S128x64.Idx → EReal) : S100000x64.Idx → EReal :=
  fun i => ∑ k : Fin 128, x (ix2 (n0 := 100000) (n1 := 128) (i 0) k) * w (ix2 (n0 := 128) (n1 := 64) k (i 1))

/-- The body's matrix product of a 5000 × 128 block with the 128 × 64 weights. -/
abbrev blockDot : DotDims S5000x128 S128x64 S5000x64 := dot_S5000x128_S128x64_S5000x64_1_0_0_1_n_n

/-- The left factor's row is the result's row … -/
theorem lhs_row (i : S5000x64.Idx) (q : blockDot.contr.Idx) : (blockDot.lhsIdx i q 0).val = (i 0).val := by
  unfold DotDims.lhsIdx
  rw [dif_neg (show ¬(0 : Fin S5000x128.rank) ∈ blockDot.lhsBatch by decide),
    dif_pos (show (0 : Fin S5000x128.rank) ∈ blockDot.lhsNonContracting by decide)]
  rfl
/-- … its column the contracted index … -/
theorem lhs_col (i : S5000x64.Idx) (q : blockDot.contr.Idx) : (blockDot.lhsIdx i q 1).val = (q ⟨0, by decide⟩).val :=
  blockDot.lhsIdx_val_of_single rfl i q
/-- … which is the right factor's row … -/
theorem rhs_row (i : S5000x64.Idx) (q : blockDot.contr.Idx) : (blockDot.rhsIdx i q 0).val = (q ⟨0, by decide⟩).val :=
  blockDot.rhsIdx_val_of_single rfl i q
/-- … and the right factor's column is the result's column. -/
theorem rhs_col (i : S5000x64.Idx) (q : blockDot.contr.Idx) : (blockDot.rhsIdx i q 1).val = (i 1).val := by
  unfold DotDims.rhsIdx
  rw [dif_neg (show ¬(1 : Fin S128x64.rank) ∈ blockDot.rhsBatch by decide),
    dif_pos (show (1 : Fin S128x64.rank) ∈ blockDot.rhsNonContracting by decide)]
  rfl

/-- The body's stored value at row p, column q of its block: Σ_k block (p, k) · weights (k, q) — the change of float
    format in front of the product is the identity on the extended reals, and the accumulator starts at zero. -/
theorem stored_apply (x0 : Vec Ideal S5000x128 .f32) (x1 : Vec Ideal S128x64 .f32) (p : Fin 5000) (q : Fin 64) :
    k2_pay1 x0 x1 (ix2 p q)
      = ∑ k : Fin 128, x0 (ix2 (n0 := 5000) (n1 := 128) p k) * x1 (ix2 (n0 := 128) (n1 := 64) k q) := by
  unfold k2_pay1
  simp only [matmul]
  rw [Ideal.matmul_constant_zero_apply, ← Equiv.sum_comp (ValueIdx.contrEquiv1 blockDot 128 rfl rfl).symm]
  refine Finset.sum_congr rfl fun k _ => ?_
  have hk := ValueIdx.contrEquiv1_symm_val blockDot 128 rfl rfl k
  have el : blockDot.lhsIdx (ix2 p q) ((ValueIdx.contrEquiv1 blockDot 128 rfl rfl).symm k)
      = ix2 (n0 := 5000) (n1 := 128) p k := funext fun a => Fin.ext (by
    match a with
    | ⟨0, _⟩ => exact lhs_row _ _
    | ⟨1, _⟩ => exact (lhs_col _ _).trans hk)
  have er : blockDot.rhsIdx (ix2 p q) ((ValueIdx.contrEquiv1 blockDot 128 rfl rfl).symm k)
      = ix2 (n0 := 128) (n1 := 64) k q := funext fun a => Fin.ext (by
    match a with
    | ⟨0, _⟩ => exact (rhs_row _ _).trans hk
    | ⟨1, _⟩ => exact rhs_col _ _)
  rw [el, er]
  show shapeCast S5000x128 x0 shapeCasts_S5000x128_S5000x128 (ix2 (n0 := 5000) (n1 := 128) p k)
      * x1 (ix2 (n0 := 128) (n1 := 64) k q) = _
  rw [shapeCast_self]

/-- The same at any index of the block. -/
theorem stored_at (x0 : Vec Ideal S5000x128 .f32) (x1 : Vec Ideal S128x64 .f32) (y : S5000x64.Idx) :
    k2_pay1 x0 x1 y
      = ∑ k : Fin 128, x0 (ix2 (n0 := 5000) (n1 := 128) (y 0) k) * x1 (ix2 (n0 := 128) (n1 := 64) k (y 1)) :=
  (congrArg (k2_pay1 x0 x1) (eq_ix2 y)).trans (stored_apply x0 x1 (y 0) (y 1))

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left factor's and the result's blocks move down the rows with the point,
    the weights stay. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 19
    ∧ win2_2.index t (1 : Fin 2) = 0 :=
  (by decide +kernel : ∀ t : Fin grid2.N, _)

/-- Every block of rows is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- What point `t` writes back is block `t` of the product of what the region found. -/
theorem flushed_eq (c : Dev nD) (t : Fin cfg2.N) :
    (dat2 V c).flushed 2 t
      = ((cfg2.win 2).blk t).view.read (Elt Ideal) (matProd (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  show k2_pay1 (iblk2 V c 0 t) (iblk2 V c 1 t) j
      = matProd (V c main_v45) (V c main_arg4) (((cfg2.win 2).blk t).view.emb j)
  refine (stored_at _ _ j).trans ?_
  unfold matProd
  refine Finset.sum_congr rfl fun k _ => congrArg₂ (fun u v : EReal => u * v) ?_ ?_
  · show V c main_v45 (((cfg2.win 0).blk t).view.emb (ix2 (n0 := 5000) (n1 := 128) (j 0) k)) = _
    refine congrArg (V c main_v45) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · show V c main_arg4 (((cfg2.win 1).blk t).view.emb (ix2 (n0 := 128) (n1 := 64) k (j 1))) = _
    refine congrArg (V c main_arg4) (funext fun a => Fin.ext ?_)
    match a with
    | ⟨0, _⟩ =>
      show win2_1.index t (0 : Fin 2) * 128 + 1 * k.val = k.val
      omega
    | ⟨1, _⟩ =>
      show win2_1.index t (1 : Fin 2) * 64 + 1 * (j 1).val = win2_2.index t (1 : Fin 2) * 64 + 1 * (j 1).val
      omega

/-- An index of the array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- Every row of the array is in the block of the point numbered by its row / 5000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- The array after the region: the product of the two matrices the region found. -/
theorem final (c : Dev nD) :
    (dat2 V c).arrAt 2 cfg2.N = matProd (V c main_v45) (V c main_arg4) :=
  (dat2 V c).arrAt_eq_of_cover 2 _ (fun t _ => flushed_eq V c t) cover

end Cert.KernelIdeal.SecondProduct

end
-- ==== Proof.LibRowMax.lean ====
/-
  The maximum of a row, read at an index, for matrices of `n` rows and `m` columns on the extended reals.
  A lane reduction by maximum along the rows of a matrix, and the host's reduce by maximum along the same axis, are both
  the fold of `max` over the row's entries, started from the accumulator's (respectively the initial) value. Since `max`
  commutes and associates the order of the fold does not matter, and both read the same finite set of entries.
  Nothing here depends on a program.
-/
import Idealize.ShloMosaic.Lib.Pipeline.Value
import Idealize.ShloMosaic.Lib.ValueIdx
import Idealize.ShloMosaic.PureOps.Ideal.Laws

noncomputable section

open scoped BigOperators

namespace Cert.LibRowMax

open Idealize.ShloMosaic Idealize.ShloMosaic.ValueIdx

/-- The index over row `r` with `k` inserted on the reduced axis is `(r, k)`. -/
theorem lift_row {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by maximum of an `n × m` matrix along its rows: at row `r` the fold of `max` over the row's entries,
    from the value the accumulator's pattern denotes. -/
theorem multiReduction_max_rows {n m : Nat} (src : FVec Ideal ⟨2, ![n, m]⟩ .f32) (acc : BitVec 32)
    (h : (⟨2, ![n, m]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin m)).fold max (Ideal.ofBits .f32 acc) (fun k => src (ix2 r k)) :=
  (Ideal.multiReduction_maximumf_single src acc h hφ hacc (ix1 r)).trans
    (congrArg (fun f : Fin m → EReal => (Finset.univ : Finset (Fin m)).fold max (Ideal.ofBits .f32 acc) f)
      (funext fun k => congrArg src (lift_row h r k)))

/-- The host's reduce by maximum of an `n × m` matrix along its rows: at row `r` the fold of `max` over the row's entries,
    from the initial value. -/
theorem hostReduceMax_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduce (FloatOps.maximumf (F := Ideal) (φ := .f32)) x init h' hu (ix1 r)
      = (Finset.univ : Finset (Fin m)).fold max (init ix0) (fun k => x (ix2 r k)) := by
  have e0 : Shape.Idx.first hu = ix0 := funext fun a => a.elim0
  rw [Host.reduce_eq_fold_single (FloatOps.maximumf (F := Ideal) (φ := .f32)) x init h' h hu (ix1 r), e0]
  exact congrArg (fun f : Fin m → EReal => (Finset.univ : Finset (Fin m)).fold max (init ix0) f)
    (funext fun k => congrArg x (lift_row h r k))

end Cert.LibRowMax

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.LibLogSoftmax.lean ====
/-
  The log-softmax of a row of `m` extended reals, and a kernel's and a host program's forms of it read at an entry.
  With t the largest entry of the row (the fold of max from -inf), entry q of the result is
  (row q − t) − log (Σ k, exp (row k − t)). The kernel computes t by a lane reduction, spreads it back over the row through
  a one-column matrix, and sums the exponentials by a second lane reduction (which adds nothing to the sum); the host
  computes t by its reduce, takes the maximum of that with -inf once more (which changes nothing: t is already at least
  -inf), and its sum starts from the constant 0. Both are general in the number of rows and of columns. Nothing here
  depends on a program.
-/
import proofs.«126463_j28681791603309_1_alg».proof.Proof.LibRowMax
import proofs.«126463_j28681791603309_1_alg».proof.Proof.LibColumns

noncomputable section

open scoped BigOperators

namespace Cert.LibLogSoftmax

open Idealize.ShloMosaic Idealize.ShloMosaic.ValueIdx

/-- The largest entry of a row, the fold started from -inf. -/
def top {m : Nat} (row : Fin m → EReal) : EReal :=
  (Finset.univ : Finset (Fin m)).fold max (Ideal.ofBits .f32 0xFF800000#32) row

/-- Entry `q` of the log-softmax of a row. -/
def lsmRow {m : Nat} (row : Fin m → EReal) (q : Fin m) : EReal :=
  row q - top row - Ideal.log (∑ k : Fin m, Ideal.exp (row k - top row))

/-- The kernel's form on a block of `n` rows: both row reductions are lane reductions, each spread back over the row
    through an `n × 1` matrix. -/
theorem lsm_lanes {n m : Nat} (x : FVec Ideal ⟨2, ![n, m]⟩ .f32)
    (h : (⟨2, ![n, m]⟩ : Shape).Reduces [1] ⟨1, ![n]⟩) (hc : (⟨1, ![n]⟩ : Shape).ShapeCasts ⟨2, ![n, 1]⟩)
    (hb : (⟨2, ![n, 1]⟩ : Shape).Broadcasts ⟨2, ![n, m]⟩) (hφ : FKind.Formats .f32)
    (hM : (0xFF800000#32 : BitVec 32) = FKind.maximumf.neutral .f32 hφ)
    (hS : (0x00000000#32 : BitVec 32) = FKind.add.neutral .f32 hφ) (r : Fin n) (q : Fin m) :
    subf (subf x (broadcastTo ⟨2, ![n, m]⟩ (shapeCast ⟨2, ![n, 1]⟩ (multiReduction .maximumf [1] ⟨1, ![n]⟩ x 0xFF800000#32 h hφ hM) hc) hb))
      (broadcastTo ⟨2, ![n, m]⟩ (log (shapeCast ⟨2, ![n, 1]⟩ (multiReduction .add [1] ⟨1, ![n]⟩
        (exp (subf x (broadcastTo ⟨2, ![n, m]⟩ (shapeCast ⟨2, ![n, 1]⟩ (multiReduction .maximumf [1] ⟨1, ![n]⟩ x 0xFF800000#32 h hφ hM) hc) hb)))
        0x00000000#32 h hφ hS) hc)) hb) (ix2 r q)
      = lsmRow (fun k => x (ix2 r k)) q := by
  have e4 : ∀ q' : Fin m, (broadcastTo ⟨2, ![n, m]⟩ (shapeCast ⟨2, ![n, 1]⟩ (multiReduction .maximumf [1] ⟨1, ![n]⟩ x 0xFF800000#32 h hφ hM) hc) hb) (ix2 r q')
      = top (fun k => x (ix2 r k)) := fun q' =>
    (Cert.LibColumns.broadcastTo_col _ hb r q').trans
      ((Cert.LibColumns.shapeCast_vec_col _ hc r).trans (Cert.LibRowMax.multiReduction_max_rows x _ h hφ hM r))
  unfold lsmRow
  refine congrArg₂ (fun a b : EReal => a - b) (congrArg (fun a : EReal => x (ix2 r q) - a) (e4 q)) ?_
  refine (Cert.LibColumns.broadcastTo_col _ hb r q).trans ?_
  refine congrArg Ideal.log ?_
  refine (Cert.LibColumns.shapeCast_vec_col _ hc r).trans ?_
  refine (Cert.LibColumns.multiReduction_rows _ h hφ hS r).trans ?_
  exact Finset.sum_congr rfl fun k _ => congrArg Ideal.exp (congrArg (fun a : EReal => x (ix2 r k) - a) (e4 k))

/-- The maximum of the fold's start with the fold is the fold. -/
theorem max_start_fold {m : Nat} (a : EReal) (f : Fin m → EReal) :
    max a ((Finset.univ : Finset (Fin m)).fold max a f) = (Finset.univ : Finset (Fin m)).fold max a f :=
  max_eq_right ((Finset.le_fold_max a).mpr (Or.inl le_rfl))

/-- The host's form on a matrix of `n` rows: its reduce by maximum from -inf, once more the maximum with -inf, and its sum
    of the exponentials from the constant 0, each spread back over the row by two broadcasts. -/
theorem lsm_host {n m : Nat} (y : FVec Ideal ⟨2, ![n, m]⟩ .f32)
    (hr : (⟨2, ![n, m]⟩ : Shape).ReducesTo [1] ⟨1, ![n]⟩) (hu : 0 < (⟨0, ![]⟩ : Shape).numel)
    (h : (⟨2, ![n, m]⟩ : Shape).Reduces [1] ⟨1, ![n]⟩)
    (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, m]⟩ ![0, 1]) (r : Fin n) (q : Fin m) :
    subf (subf y (broadcastInDim ⟨2, ![n, m]⟩ ![0, 1] hb2 (broadcastInDim ⟨2, ![n, 1]⟩ ![0] hb1 (maximumf (broadcastInDim ⟨1, ![n]⟩ ![] hb0 (constant (F := Ideal) ⟨0, ![]⟩ .f32 0xFF800000#32)) (Host.reduce (FloatOps.maximumf (F := Ideal) (φ := .f32)) y (constant (F := Ideal) ⟨0, ![]⟩ .f32 0xFF800000#32) hr hu)))))
      (broadcastInDim ⟨2, ![n, m]⟩ ![0, 1] hb2 (Host.log (broadcastInDim ⟨2, ![n, 1]⟩ ![0] hb1 (Host.reduceAdd (F := Ideal) (Host.exp (subf y (broadcastInDim ⟨2, ![n, m]⟩ ![0, 1] hb2 (broadcastInDim ⟨2, ![n, 1]⟩ ![0] hb1 (maximumf (broadcastInDim ⟨1, ![n]⟩ ![] hb0 (constant (F := Ideal) ⟨0, ![]⟩ .f32 0xFF800000#32)) (Host.reduce (FloatOps.maximumf (F := Ideal) (φ := .f32)) y (constant (F := Ideal) ⟨0, ![]⟩ .f32 0xFF800000#32) hr hu)))))) (constant (F := Ideal) ⟨0, ![]⟩ .f32 0x00000000#32) hr hu)))) (ix2 r q)
      = lsmRow (fun k => y (ix2 r k)) q := by
  have e4 : ∀ q' : Fin m, (broadcastInDim ⟨2, ![n, m]⟩ ![0, 1] hb2 (broadcastInDim ⟨2, ![n, 1]⟩ ![0] hb1 (maximumf (broadcastInDim ⟨1, ![n]⟩ ![] hb0 (constant (F := Ideal) ⟨0, ![]⟩ .f32 0xFF800000#32)) (Host.reduce (FloatOps.maximumf (F := Ideal) (φ := .f32)) y (constant (F := Ideal) ⟨0, ![]⟩ .f32 0xFF800000#32) hr hu)))) (ix2 r q')
      = top (fun k => y (ix2 r k)) := fun q' =>
    (Cert.LibColumns.broadcastInDim_col_mat ![0, 1] rfl rfl hb2 _ r q').trans
      ((Cert.LibColumns.broadcastInDim_vec_col ![0] rfl hb1 _ r).trans
        ((congrArg₂ max (Cert.LibColumns.broadcastInDim_scalar ![] hb0 _ (ix1 r))
            (Cert.LibRowMax.hostReduceMax_rows y _ hr hu h r)).trans (max_start_fold _ _)))
  unfold lsmRow
  refine congrArg₂ (fun a b : EReal => a - b) (congrArg (fun a : EReal => y (ix2 r q) - a) (e4 q)) ?_
  refine (Cert.LibColumns.broadcastInDim_col_mat ![0, 1] rfl rfl hb2 _ r q).trans ?_
  refine congrArg Ideal.log ?_
  refine (Cert.LibColumns.broadcastInDim_vec_col ![0] rfl hb1 _ r).trans ?_
  refine (Cert.LibColumns.hostReduceAdd_rows _ _ hr hu h r).trans ?_
  refine (congrArg (· + _) Ideal.ofBits_zero_f32).trans ((zero_add _).trans ?_)
  exact Finset.sum_congr rfl fun k _ => congrArg Ideal.exp (congrArg (fun a : EReal => y (ix2 r k) - a) (e4 k))

end Cert.LibLogSoftmax

end
-- ==== Proof.LogSoftmaxRegion.lean ====
/-
  The last kernel: bias + log-softmax over the rows of a 100000 × 64 matrix, 5000 rows at a grid point.

  At a point the body adds the 1 × 64 bias to every row of its 5000 × 64 block and takes the log-softmax of each row:
  with t the largest entry of the row, entry q is (row q − t) − log Σ_k exp (row k − t).  A row of the result
  depends on that row of the block only, and the 20 blocks tile the rows of the array, so the array ends holding the
  row-wise log-softmax of (matrix + bias) — whatever the region found in its two operands.
-/
import proofs.«126463_j28681791603309_1_alg».proof.Proof.Gen.KernelIdeal.Frame
import proofs.«126463_j28681791603309_1_alg».proof.Proof.LibLogSoftmax
import Idealize.ShloMosaic.Lib.ValueLayout

set_option maxRecDepth 16384

noncomputable section

namespace Cert.KernelIdeal.LogSoftmaxRegion

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The row-wise log-softmax of a 100000 × 64 matrix with a 1 × 64 bias added to every row. -/
def biasLogSoftmax (a : S100000x64.Idx → EReal) (b : S1x64.Idx → EReal) : S100000x64.Idx → EReal :=
  fun i => Cert.LibLogSoftmax.lsmRow (m := 64) (fun k : Fin 64 => a (ix2 (n0 := 100000) (n1 := 64) (i 0) k) + b (ix2 (n0 := 1) (n1 := 64) 0 k)) (i 1)

/-- The body's stored value at row p, column q of its block: the log-softmax of (row p of the block + bias) at q. -/
theorem stored_apply (x0 : Vec Ideal S5000x64 .f32) (x1 : Vec Ideal S1x64 .f32) (p : Fin 5000) (q : Fin 64) :
    k3_pay1 x0 x1 (ix2 p q)
      = Cert.LibLogSoftmax.lsmRow (fun k : Fin 64 => x0 (ix2 (n0 := 5000) (n1 := 64) p k) + x1 (ix2 (n0 := 1) (n1 := 64) 0 k)) q := by
  unfold k3_pay1
  refine (Cert.LibLogSoftmax.lsm_lanes (n := 5000) (m := 64)
    (addf (shapeCast S5000x64 x0 shapeCasts_S5000x64_S5000x64)
      (broadcastTo S5000x64 (shapeCast S1x64 x1 shapeCasts_S1x64_S1x64) broadcasts_S1x64_S5000x64))
    reduces_S5000x64_S5000 shapeCasts_S5000_S5000x1 broadcasts_S5000x1_S5000x64 (.inl rfl) rfl rfl p q).trans ?_
  refine congrArg (fun f => Cert.LibLogSoftmax.lsmRow f q) (funext fun k => ?_)
  show shapeCast S5000x64 x0 shapeCasts_S5000x64_S5000x64 (ix2 p k)
      + broadcastTo S5000x64 (shapeCast S1x64 x1 shapeCasts_S1x64_S1x64) broadcasts_S1x64_S5000x64 (ix2 p k) = _
  rw [shapeCast_self, broadcastTo_1b_ab_apply, shapeCast_self]

/-- The same at any index of the block. -/
theorem stored_at (x0 : Vec Ideal S5000x64 .f32) (x1 : Vec Ideal S1x64 .f32) (y : S5000x64.Idx) :
    k3_pay1 x0 x1 y
      = Cert.LibLogSoftmax.lsmRow (fun k : Fin 64 => x0 (ix2 (n0 := 5000) (n1 := 64) (y 0) k) + x1 (ix2 (n0 := 1) (n1 := 64) 0 k)) (y 1) :=
  (congrArg (k3_pay1 x0 x1) (eq_ix2 y)).trans (stored_apply x0 x1 (y 0) (y 1))

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the matrix's and the result's blocks move down the rows with the point, the
    bias stays. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 19
    ∧ win3_2.index t (1 : Fin 2) = 0 :=
  (by decide +kernel : ∀ t : Fin grid3.N, _)

/-- Every block of rows is some point's. -/
theorem idx_onto : ∀ q0 : Fin 20, ∃ t : Fin cfg3.N, win3_2.index t = ![q0.val, 0] :=
  (by decide +kernel : ∀ q0 : Fin 20, ∃ t : Fin grid3.N, win3_2.index t = ![q0.val, 0])

/-- What point `t` writes back is block `t` of the row-wise log-softmax of what the region found. -/
theorem flushed_eq (c : Dev nD) (t : Fin cfg3.N) :
    (dat3 V c).flushed 2 t
      = ((cfg3.win 2).blk t).view.read (Elt Ideal) (biasLogSoftmax (V c main_v59) (V c main_v60)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  funext j
  show k3_pay1 (iblk3 V c 0 t) (iblk3 V c 1 t) j
      = biasLogSoftmax (V c main_v59) (V c main_v60) (((cfg3.win 2).blk t).view.emb j)
  refine (stored_at _ _ j).trans ?_
  unfold biasLogSoftmax
  have h1 : ((cfg3.win 2).blk t).view.emb j 1 = j 1 := Fin.ext (by
    show win3_2.index t (1 : Fin 2) * 64 + 1 * (j 1).val = (j 1).val
    omega)
  have hrow : ∀ k : Fin 64, iblk3 V c 0 t (ix2 (n0 := 5000) (n1 := 64) (j 0) k)
      = V c main_v59 (ix2 (n0 := 100000) (n1 := 64) (((cfg3.win 2).blk t).view.emb j 0) k) := fun k => by
    show V c main_v59 (((cfg3.win 0).blk t).view.emb (ix2 (n0 := 5000) (n1 := 64) (j 0) k)) = _
    refine congrArg (V c main_v59) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 64 + 1 * k.val = k.val
      omega
  have hb : ∀ k : Fin 64, iblk3 V c 1 t (ix2 (n0 := 1) (n1 := 64) 0 k) = V c main_v60 (ix2 (n0 := 1) (n1 := 64) 0 k) := fun k => by
    show V c main_v60 (((cfg3.win 1).blk t).view.emb (ix2 (n0 := 1) (n1 := 64) 0 k)) = _
    refine congrArg (V c main_v60) (funext fun a => Fin.ext ?_)
    match a with
    | ⟨0, _⟩ =>
      show win3_1.index t (0 : Fin 2) * 1 + 1 * 0 = 0
      omega
    | ⟨1, _⟩ =>
      show win3_1.index t (1 : Fin 2) * 64 + 1 * k.val = k.val
      omega
  exact (congrArg (fun f => Cert.LibLogSoftmax.lsmRow f (j 1))
      (funext fun k => congrArg₂ (fun u v : EReal => u + v) (hrow k) (hb k))).trans
    (congrArg (Cert.LibLogSoftmax.lsmRow _) h1.symm)

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v61).slice (win3_2.rect t)).set ↔ _
  rw [View.set_slice_whole, Rect.mem_set_unit]
  exact Iff.rfl

/-- Every row of the array is in the block of the point numbered by its row / 5000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- The array after the region: the row-wise log-softmax of (matrix + bias), of what the region found. -/
theorem final (c : Dev nD) :
    (dat3 V c).arrAt 2 cfg3.N = biasLogSoftmax (V c main_v59) (V c main_v60) :=
  (dat3 V c).arrAt_eq_of_cover 2 _ (fun t _ => flushed_eq V c t) cover

end Cert.KernelIdeal.LogSoftmaxRegion

end
-- ==== Proof.Glue.lean ====
/-
  The graph part of a two-layer graph convolution, as named functions of the edge list.

  The edge list is a 2 × 1600000 array of node numbers: row 0 the sources, row 1 the targets.  Both programs first add a
  self-loop at each of the 100000 nodes (`sources`, `targets`: the edge row followed by 0 … 99999), count every node's
  in-degree by scatter-adding ones at the targets (`degree`), take d = 1/sqrt(degree) where the degree is positive and 0
  elsewhere (`invSqrtDegree`), and weigh edge j by d(source j) · d(target j) (`edgeWeight`; a negative node number counts
  from the end: `fromEnd`).  A layer then gathers the rows of a feature matrix at the sources, scales row j by the weight of
  edge j, and scatter-adds the rows into the targets (`aggregate128`, `aggregate64`).  Neither program's certificate
  ever opens these: both apply the same functions to values proved equal.
-/
import proofs.«126463_j28681791603309_1_alg».proof.Proof.Gen.ReferenceIdeal
import Idealize.ShloMosaic.PureOps.Ideal

noncomputable section

namespace Cert.Glue

open Idealize.ShloMosaic Cert.ReferenceIdeal Cert.ReferenceIdeal.Gen

/-- The sources of the edges, then every node once (the self-loops). -/
def sources (e : (⟨S2x1600000, .i32⟩ : BufTy).Contents (Elt Ideal)) : (⟨S1700000, .i32⟩ : BufTy).Contents (Elt Ideal) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The targets of the edges, then every node once (the self-loops). -/
def targets (e : (⟨S2x1600000, .i32⟩ : BufTy).Contents (Elt Ideal)) : (⟨S1700000, .i32⟩ : BufTy).Contents (Elt Ideal) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A negative node number counts from the end: 100000 is added to it. -/
def fromEnd (r : (⟨S1700000, .i32⟩ : BufTy).Contents (Elt Ideal)) : (⟨S1700000, .i32⟩ : BufTy).Contents (Elt Ideal) :=
  select (cmpi .slt r (broadcastInDim S1700000 ![] bcast_S_S1700000 (constantI S_ 32 0#32))) (addi r (broadcastInDim S1700000 ![] bcast_S_S1700000 (constantI S_ 32 100000#32))) r

/-- Every node's in-degree, self-loop included: ones scatter-added at the targets. -/
def degree (e : (⟨S2x1600000, .i32⟩ : BufTy).Contents (Elt Ideal)) : (⟨S100000, .f32⟩ : BufTy).Contents (Elt Ideal) :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (targets e)) (broadcastInDim S1700000 ![] bcast_S_S1700000 (constant (F := Ideal) S_ .f32 0x3F800000#32))

/-- 1/sqrt(degree) where the degree is positive, 0 elsewhere. -/
def invSqrtDegree (e : (⟨S2x1600000, .i32⟩ : BufTy).Contents (Elt Ideal)) : (⟨S100000, .f32⟩ : BufTy).Contents (Elt Ideal) :=
  select (cmpf (F := Ideal) .ogt (degree e) (broadcastInDim S100000 ![] bcast_S_S100000 (constant (F := Ideal) S_ .f32 0x00000000#32))) (Host.rsqrt (F := Ideal) (φ := .f32) (degree e)) (broadcastInDim S100000 ![] bcast_S_S100000 (id (constant (F := Ideal) S_ .f32 0x00000000#32)))

/-- The weight of edge j: d(source j) · d(target j). -/
def edgeWeight (e : (⟨S2x1600000, .i32⟩ : BufTy).Contents (Elt Ideal)) : (⟨S1700000, .f32⟩ : BufTy).Contents (Elt Ideal) :=
  mulf (F := Ideal) (φ := .f32) (Host.gather gather_S100000_S1700000x1_S1700000_n_0_n_n_0_1_1 (invSqrtDegree e) (broadcastInDim S1700000x1 ![0] bcast_S1700000_S1700000x1_0 (fromEnd (sources e)))) (Host.gather gather_S100000_S1700000x1_S1700000_n_0_n_n_0_1_1 (invSqrtDegree e) (broadcastInDim S1700000x1 ![0] bcast_S1700000_S1700000x1_0 (fromEnd (targets e))))

/-- One aggregation over 128 features: row (source j) of `h` scaled by weight j, scatter-added into row (target j). -/
def aggregate128 (h : (⟨S100000x128, .f32⟩ : BufTy).Contents (Elt Ideal)) (src tgt : (⟨S1700000, .i32⟩ : BufTy).Contents (Elt Ideal)) (wt : (⟨S1700000, .f32⟩ : BufTy).Contents (Elt Ideal)) : (⟨S100000x128, .f32⟩ : BufTy).Contents (Elt Ideal) :=
  Host.scatterAdd (F := Ideal) scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 tgt) (mulf (F := Ideal) (φ := .f32) (Host.gather gather_S100000x128_S1700000x1_S1700000x128_1_0_n_n_0_1_1128 h (broadcastInDim S1700000x1 ![0] bcast_S1700000_S1700000x1_0 (fromEnd src))) (broadcastInDim S1700000x128 ![0, 1] bcast_S1700000x1_S1700000x128_0_1 (broadcastInDim S1700000x1 ![0] bcast_S1700000_S1700000x1_0 wt)))

/-- The same over 64 features. -/
def aggregate64 (h : (⟨S100000x64, .f32⟩ : BufTy).Contents (Elt Ideal)) (src tgt : (⟨S1700000, .i32⟩ : BufTy).Contents (Elt Ideal)) (wt : (⟨S1700000, .f32⟩ : BufTy).Contents (Elt Ideal)) : (⟨S100000x64, .f32⟩ : BufTy).Contents (Elt Ideal) :=
  Host.scatterAdd (F := Ideal) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 tgt) (mulf (F := Ideal) (φ := .f32) (Host.gather gather_S100000x64_S1700000x1_S1700000x64_1_0_n_n_0_1_164 h (broadcastInDim S1700000x1 ![0] bcast_S1700000_S1700000x1_0 (fromEnd src))) (broadcastInDim S1700000x64 ![0, 1] bcast_S1700000x1_S1700000x64_0_1 (broadcastInDim S1700000x1 ![0] bcast_S1700000_S1700000x1_0 wt)))

end Cert.Glue

end
-- ==== Proof.HostStretches.lean ====
/-
  The kernel program's host operations between its four kernels, read off for ANY contents they are entered from.

  Before the first kernel: the edge lists with their self-loops, the degrees and the edge weights — functions of the edge
  list alone.  Between the first and the second kernel: one aggregation of the first product's rows over the edges, and the
  128 biases re-laid as a 1 × 128 matrix.  Between the third and the fourth kernel: one aggregation of the second product's
  rows, and the 64 biases re-laid as a 1 × 64 matrix.  Every other buffer a stretch passes is left as it was.
-/
import proofs.«126463_j28681791603309_1_alg».proof.Proof.Gen.KernelIdeal.Launch
import proofs.«126463_j28681791603309_1_alg».proof.Proof.Glue
import Idealize.ShloMosaic.Lib.StableHlo.Run

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen

variable (Wv : Valuation τ sig (Elt Ideal))

/-- The contents after the three stretches in front of the first kernel. -/
def «prefix» : Valuation τ sig (Elt Ideal) := after hostOps0_2 (after hostOps0_1 (after hostOps0 Wv))
/-- The contents after the stretch between the first and the second kernel. -/
def middle : Valuation τ sig (Elt Ideal) := after hostOps1 Wv
/-- The contents after the stretch between the third and the fourth kernel. -/
def last : Valuation τ sig (Elt Ideal) := after hostOps3 Wv

/-! ## In front of the first kernel -/

theorem prefix_sources : «prefix» Wv (Proc.devRef .tc main_v3) = Cert.Glue.sources (Wv (Proc.devRef .tc main_arg1)) := by
  simp only [«prefix», hostOps0, hostOps0_1, hostOps0_2]
  after_results_simp <;> rfl

theorem prefix_targets : «prefix» Wv (Proc.devRef .tc main_v6) = Cert.Glue.targets (Wv (Proc.devRef .tc main_arg1)) := by
  simp only [«prefix», hostOps0, hostOps0_1, hostOps0_2]
  after_results_simp <;> rfl

/-- The first stretch leaves the degrees' positivity test … -/
theorem first_degreePositive : after hostOps0 Wv (Proc.devRef .tc main_v12)
    = cmpf (F := Ideal) .ogt (Cert.Glue.degree (Wv (Proc.devRef .tc main_arg1)))
        (broadcastInDim S100000 ![] bcast_S_S100000 (constant (F := Ideal) S_ .f32 0x00000000#32)) := by
  simp only [hostOps0]
  after_results_simp <;> rfl
/-- … their inverse square roots … -/
theorem first_rsqrt : after hostOps0 Wv (Proc.devRef .tc main_v13) = Host.rsqrt (F := Ideal) (φ := .f32) (Cert.Glue.degree (Wv (Proc.devRef .tc main_arg1))) := by
  simp only [hostOps0]
  after_results_simp <;> rfl
/-- … the constant zero … -/
theorem first_zero : after hostOps0 Wv (Proc.devRef .tc main_cst_2) = constant (F := Ideal) S_ .f32 0x00000000#32 := by
  simp only [hostOps0]
  after_results_simp <;> rfl
/-- … and the two edge lists with their self-loops. -/
theorem first_sources : after hostOps0 Wv (Proc.devRef .tc main_v3) = Cert.Glue.sources (Wv (Proc.devRef .tc main_arg1)) := by
  simp only [hostOps0]
  after_results_simp <;> rfl
theorem first_targets : after hostOps0 Wv (Proc.devRef .tc main_v6) = Cert.Glue.targets (Wv (Proc.devRef .tc main_arg1)) := by
  simp only [hostOps0]
  after_results_simp <;> rfl

/-- The second stretch selects 1/sqrt(degree) where the degree is positive, zero elsewhere … -/
theorem second_select : after hostOps0_1 Wv (Proc.devRef .tc main_v14)
    = select (Wv (Proc.devRef .tc main_v12)) (Wv (Proc.devRef .tc main_v13)) (broadcastInDim S100000 ![] bcast_S_S100000 (id (Wv (Proc.devRef .tc main_cst_2)))) := by
  simp only [hostOps0_1]
  after_results_simp <;> rfl
/-- … and leaves the edge lists. -/
theorem second_main_v3 : after hostOps0_1 Wv (Proc.devRef .tc main_v3) = Wv (Proc.devRef .tc main_v3) := by
  simp only [hostOps0_1]
  after_results_simp <;> rfl
theorem second_main_v6 : after hostOps0_1 Wv (Proc.devRef .tc main_v6) = Wv (Proc.devRef .tc main_v6) := by
  simp only [hostOps0_1]
  after_results_simp <;> rfl

/-- The third stretch weighs edge j by d(source j) · d(target j). -/
theorem third_weigh : after hostOps0_2 Wv (Proc.devRef .tc main_v29)
    = mulf (F := Ideal) (φ := .f32)
        (Host.gather gather_S100000_S1700000x1_S1700000_n_0_n_n_0_1_1 (Wv (Proc.devRef .tc main_v14))
          (broadcastInDim S1700000x1 ![0] bcast_S1700000_S1700000x1_0 (Cert.Glue.fromEnd (Wv (Proc.devRef .tc main_v3)))))
        (Host.gather gather_S100000_S1700000x1_S1700000_n_0_n_n_0_1_1 (Wv (Proc.devRef .tc main_v14))
          (broadcastInDim S1700000x1 ![0] bcast_S1700000_S1700000x1_0 (Cert.Glue.fromEnd (Wv (Proc.devRef .tc main_v6))))) := by
  simp only [hostOps0_2]
  after_results_simp <;> rfl

theorem prefix_edgeWeight : «prefix» Wv (Proc.devRef .tc main_v29) = Cert.Glue.edgeWeight (Wv (Proc.devRef .tc main_arg1)) := by
  unfold «prefix»
  rw [third_weigh, second_select, second_main_v3, second_main_v6, first_degreePositive, first_rsqrt, first_zero,
    first_sources, first_targets]
  rfl

theorem prefix_main_arg0 : «prefix» Wv (Proc.devRef .tc main_arg0) = Wv (Proc.devRef .tc main_arg0) := by
  simp only [«prefix», hostOps0, hostOps0_1, hostOps0_2]
  after_results_simp <;> rfl

theorem prefix_main_arg2 : «prefix» Wv (Proc.devRef .tc main_arg2) = Wv (Proc.devRef .tc main_arg2) := by
  simp only [«prefix», hostOps0, hostOps0_1, hostOps0_2]
  after_results_simp <;> rfl

theorem prefix_main_arg3 : «prefix» Wv (Proc.devRef .tc main_arg3) = Wv (Proc.devRef .tc main_arg3) := by
  simp only [«prefix», hostOps0, hostOps0_1, hostOps0_2]
  after_results_simp <;> rfl

theorem prefix_main_arg4 : «prefix» Wv (Proc.devRef .tc main_arg4) = Wv (Proc.devRef .tc main_arg4) := by
  simp only [«prefix», hostOps0, hostOps0_1, hostOps0_2]
  after_results_simp <;> rfl

theorem prefix_main_arg5 : «prefix» Wv (Proc.devRef .tc main_arg5) = Wv (Proc.devRef .tc main_arg5) := by
  simp only [«prefix», hostOps0, hostOps0_1, hostOps0_2]
  after_results_simp <;> rfl

/-! ## Between the first and the second kernel -/

theorem middle_aggregate : middle Wv (Proc.devRef .tc main_v43)
    = Cert.Glue.aggregate128 (Wv (Proc.devRef .tc main_v30)) (Wv (Proc.devRef .tc main_v3)) (Wv (Proc.devRef .tc main_v6)) (Wv (Proc.devRef .tc main_v29)) := by
  simp only [middle, hostOps1]
  after_results_simp <;> rfl

theorem middle_bias : middle Wv (Proc.devRef .tc main_v44) = shapeCast S1x128 (Wv (Proc.devRef .tc main_arg3)) shapeCasts_S128_S1x128 := by
  simp only [middle, hostOps1]
  after_results_simp <;> rfl

theorem middle_main_v3 : middle Wv (Proc.devRef .tc main_v3) = Wv (Proc.devRef .tc main_v3) := by
  simp only [middle, hostOps1]
  after_results_simp <;> rfl

theorem middle_main_v6 : middle Wv (Proc.devRef .tc main_v6) = Wv (Proc.devRef .tc main_v6) := by
  simp only [middle, hostOps1]
  after_results_simp <;> rfl

theorem middle_main_v29 : middle Wv (Proc.devRef .tc main_v29) = Wv (Proc.devRef .tc main_v29) := by
  simp only [middle, hostOps1]
  after_results_simp <;> rfl

theorem middle_main_arg4 : middle Wv (Proc.devRef .tc main_arg4) = Wv (Proc.devRef .tc main_arg4) := by
  simp only [middle, hostOps1]
  after_results_simp <;> rfl

theorem middle_main_arg5 : middle Wv (Proc.devRef .tc main_arg5) = Wv (Proc.devRef .tc main_arg5) := by
  simp only [middle, hostOps1]
  after_results_simp <;> rfl

/-! ## Between the third and the fourth kernel -/

theorem last_aggregate : last Wv (Proc.devRef .tc main_v59)
    = Cert.Glue.aggregate64 (Wv (Proc.devRef .tc main_v46)) (Wv (Proc.devRef .tc main_v3)) (Wv (Proc.devRef .tc main_v6)) (Wv (Proc.devRef .tc main_v29)) := by
  simp only [last, hostOps3]
  after_results_simp <;> rfl

theorem last_bias : last Wv (Proc.devRef .tc main_v60) = shapeCast S1x64 (Wv (Proc.devRef .tc main_arg5)) shapeCasts_S64_S1x64 := by
  simp only [last, hostOps3]
  after_results_simp <;> rfl

end Cert.KernelIdeal.Stretches

end
-- ==== Proof.KernelValue.lean ====
/-
  What the idealized kernel program leaves in its result buffer, as one function of its six arguments.

  The contents at the nine segment boundaries are followed from the launch: the graph part gives the edge lists with their
  self-loops and the edge weights; the first kernel leaves features × weights; the stretch after it aggregates that over the
  edges and re-lays the biases; the second kernel leaves max (· + bias, 0); the third the second product; the stretch after
  it aggregates again; the last kernel leaves the row-wise log-softmax of (· + bias).  A buffer a segment does not write is
  read one boundary earlier.
-/
import proofs.«126463_j28681791603309_1_alg».proof.Proof.Gen.KernelIdeal.Frame
import proofs.«126463_j28681791603309_1_alg».proof.Proof.FirstProduct
import proofs.«126463_j28681791603309_1_alg».proof.Proof.BiasReluRegion
import proofs.«126463_j28681791603309_1_alg».proof.Proof.SecondProduct
import proofs.«126463_j28681791603309_1_alg».proof.Proof.LogSoftmaxRegion
import proofs.«126463_j28681791603309_1_alg».proof.Proof.HostStretches

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen

/-- The kernel program as one function of its arguments. -/
def whole (x : (⟨S100000x256, .f32⟩ : BufTy).Contents (Elt Ideal)) (e : (⟨S2x1600000, .i32⟩ : BufTy).Contents (Elt Ideal)) (w1 : (⟨S256x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) : (⟨S100000x64, .f32⟩ : BufTy).Contents (Elt Ideal) :=
  LogSoftmaxRegion.biasLogSoftmax
    (Cert.Glue.aggregate64
      (SecondProduct.matProd
        (BiasReluRegion.biasRelu
          (Cert.Glue.aggregate128 (FirstProduct.matProd x w1) (Cert.Glue.sources e) (Cert.Glue.targets e) (Cert.Glue.edgeWeight e))
          (shapeCast S1x128 b1 shapeCasts_S128_S1x128))
        w2)
      (Cert.Glue.sources e) (Cert.Glue.targets e) (Cert.Glue.edgeWeight e))
    (shapeCast S1x64 b2 shapeCasts_S64_S1x64)

variable (m : (ℓ : Loc nD τ sig) → Buf (Elt Ideal) ℓ) (ρ : Dev nD → PrngReg) (c : Dev nD)

/-! ## At the first kernel's entry -/

theorem entry0_sources : W3 m ρ c (Proc.devRef .tc main_v3) = Cert.Glue.sources (m ((c.tc : Thread nD τ).loc main_arg1)) :=
  Stretches.prefix_sources (W0 m ρ c)
theorem entry0_targets : W3 m ρ c (Proc.devRef .tc main_v6) = Cert.Glue.targets (m ((c.tc : Thread nD τ).loc main_arg1)) :=
  Stretches.prefix_targets (W0 m ρ c)
theorem entry0_edgeWeight : W3 m ρ c (Proc.devRef .tc main_v29) = Cert.Glue.edgeWeight (m ((c.tc : Thread nD τ).loc main_arg1)) :=
  Stretches.prefix_edgeWeight (W0 m ρ c)
theorem entry0_main_arg0 : W3 m ρ c (Proc.devRef .tc main_arg0) = (m ((c.tc : Thread nD τ).loc main_arg0)) :=
  Stretches.prefix_main_arg0 (W0 m ρ c)
theorem entry0_main_arg2 : W3 m ρ c (Proc.devRef .tc main_arg2) = (m ((c.tc : Thread nD τ).loc main_arg2)) :=
  Stretches.prefix_main_arg2 (W0 m ρ c)
theorem entry0_main_arg3 : W3 m ρ c (Proc.devRef .tc main_arg3) = (m ((c.tc : Thread nD τ).loc main_arg3)) :=
  Stretches.prefix_main_arg3 (W0 m ρ c)
theorem entry0_main_arg4 : W3 m ρ c (Proc.devRef .tc main_arg4) = (m ((c.tc : Thread nD τ).loc main_arg4)) :=
  Stretches.prefix_main_arg4 (W0 m ρ c)
theorem entry0_main_arg5 : W3 m ρ c (Proc.devRef .tc main_arg5) = (m ((c.tc : Thread nD τ).loc main_arg5)) :=
  Stretches.prefix_main_arg5 (W0 m ρ c)

/-! ## After the first kernel -/

theorem exit0_product : W4 m ρ c (Proc.devRef .tc main_v30) = FirstProduct.matProd (m ((c.tc : Thread nD τ).loc main_arg0)) (m ((c.tc : Thread nD τ).loc main_arg2)) :=
  (W4_arr m ρ c 2).trans ((FirstProduct.final (V3 m ρ) c).trans
    (congrArg₂ FirstProduct.matProd (entry0_main_arg0 m ρ c) (entry0_main_arg2 m ρ c)))
theorem exit0_sources : W4 m ρ c (Proc.devRef .tc main_v3) = Cert.Glue.sources (m ((c.tc : Thread nD τ).loc main_arg1)) :=
  (W4_of_ne m ρ c main_v3 (by decide)).trans (entry0_sources m ρ c)
theorem exit0_targets : W4 m ρ c (Proc.devRef .tc main_v6) = Cert.Glue.targets (m ((c.tc : Thread nD τ).loc main_arg1)) :=
  (W4_of_ne m ρ c main_v6 (by decide)).trans (entry0_targets m ρ c)
theorem exit0_edgeWeight : W4 m ρ c (Proc.devRef .tc main_v29) = Cert.Glue.edgeWeight (m ((c.tc : Thread nD τ).loc main_arg1)) :=
  (W4_of_ne m ρ c main_v29 (by decide)).trans (entry0_edgeWeight m ρ c)
theorem exit0_main_arg3 : W4 m ρ c (Proc.devRef .tc main_arg3) = (m ((c.tc : Thread nD τ).loc main_arg3)) :=
  (W4_of_ne m ρ c main_arg3 (by decide)).trans (entry0_main_arg3 m ρ c)
theorem exit0_main_arg4 : W4 m ρ c (Proc.devRef .tc main_arg4) = (m ((c.tc : Thread nD τ).loc main_arg4)) :=
  (W4_of_ne m ρ c main_arg4 (by decide)).trans (entry0_main_arg4 m ρ c)
theorem exit0_main_arg5 : W4 m ρ c (Proc.devRef .tc main_arg5) = (m ((c.tc : Thread nD τ).loc main_arg5)) :=
  (W4_of_ne m ρ c main_arg5 (by decide)).trans (entry0_main_arg5 m ρ c)

/-! ## At the second kernel's entry -/

/-- The first layer's aggregation, of the arguments. -/
abbrev layer1 : (⟨S100000x128, .f32⟩ : BufTy).Contents (Elt Ideal) :=
  Cert.Glue.aggregate128 (FirstProduct.matProd (m ((c.tc : Thread nD τ).loc main_arg0)) (m ((c.tc : Thread nD τ).loc main_arg2))) (Cert.Glue.sources (m ((c.tc : Thread nD τ).loc main_arg1)))
    (Cert.Glue.targets (m ((c.tc : Thread nD τ).loc main_arg1))) (Cert.Glue.edgeWeight (m ((c.tc : Thread nD τ).loc main_arg1)))

theorem entry1_aggregate : W5 m ρ c (Proc.devRef .tc main_v43) = layer1 m c :=
  (Stretches.middle_aggregate (W4 m ρ c)).trans (by
    rw [exit0_product m ρ c, exit0_sources m ρ c, exit0_targets m ρ c, exit0_edgeWeight m ρ c])
theorem entry1_bias : W5 m ρ c (Proc.devRef .tc main_v44) = shapeCast S1x128 (m ((c.tc : Thread nD τ).loc main_arg3)) shapeCasts_S128_S1x128 :=
  (Stretches.middle_bias (W4 m ρ c)).trans (by rw [exit0_main_arg3 m ρ c])
theorem entry1_sources : W5 m ρ c (Proc.devRef .tc main_v3) = Cert.Glue.sources (m ((c.tc : Thread nD τ).loc main_arg1)) :=
  (Stretches.middle_main_v3 (W4 m ρ c)).trans (exit0_sources m ρ c)
theorem entry1_targets : W5 m ρ c (Proc.devRef .tc main_v6) = Cert.Glue.targets (m ((c.tc : Thread nD τ).loc main_arg1)) :=
  (Stretches.middle_main_v6 (W4 m ρ c)).trans (exit0_targets m ρ c)
theorem entry1_edgeWeight : W5 m ρ c (Proc.devRef .tc main_v29) = Cert.Glue.edgeWeight (m ((c.tc : Thread nD τ).loc main_arg1)) :=
  (Stretches.middle_main_v29 (W4 m ρ c)).trans (exit0_edgeWeight m ρ c)
theorem entry1_main_arg4 : W5 m ρ c (Proc.devRef .tc main_arg4) = (m ((c.tc : Thread nD τ).loc main_arg4)) :=
  (Stretches.middle_main_arg4 (W4 m ρ c)).trans (exit0_main_arg4 m ρ c)
theorem entry1_main_arg5 : W5 m ρ c (Proc.devRef .tc main_arg5) = (m ((c.tc : Thread nD τ).loc main_arg5)) :=
  (Stretches.middle_main_arg5 (W4 m ρ c)).trans (exit0_main_arg5 m ρ c)

/-! ## After the second and the third kernel -/

/-- The hidden features, of the arguments. -/
abbrev hiddenK : (⟨S100000x128, .f32⟩ : BufTy).Contents (Elt Ideal) :=
  BiasReluRegion.biasRelu (layer1 m c) (shapeCast S1x128 (m ((c.tc : Thread nD τ).loc main_arg3)) shapeCasts_S128_S1x128)

theorem exit1_hidden : W6 m ρ c (Proc.devRef .tc main_v45) = hiddenK m c :=
  (W6_arr m ρ c 2).trans ((BiasReluRegion.final (V5 m ρ) c).trans
    (congrArg₂ BiasReluRegion.biasRelu (entry1_aggregate m ρ c) (entry1_bias m ρ c)))
theorem exit1_sources : W6 m ρ c (Proc.devRef .tc main_v3) = Cert.Glue.sources (m ((c.tc : Thread nD τ).loc main_arg1)) :=
  (W6_of_ne m ρ c main_v3 (by decide)).trans (entry1_sources m ρ c)
theorem exit1_targets : W6 m ρ c (Proc.devRef .tc main_v6) = Cert.Glue.targets (m ((c.tc : Thread nD τ).loc main_arg1)) :=
  (W6_of_ne m ρ c main_v6 (by decide)).trans (entry1_targets m ρ c)
theorem exit1_edgeWeight : W6 m ρ c (Proc.devRef .tc main_v29) = Cert.Glue.edgeWeight (m ((c.tc : Thread nD τ).loc main_arg1)) :=
  (W6_of_ne m ρ c main_v29 (by decide)).trans (entry1_edgeWeight m ρ c)
theorem exit1_main_arg4 : W6 m ρ c (Proc.devRef .tc main_arg4) = (m ((c.tc : Thread nD τ).loc main_arg4)) :=
  (W6_of_ne m ρ c main_arg4 (by decide)).trans (entry1_main_arg4 m ρ c)
theorem exit1_main_arg5 : W6 m ρ c (Proc.devRef .tc main_arg5) = (m ((c.tc : Thread nD τ).loc main_arg5)) :=
  (W6_of_ne m ρ c main_arg5 (by decide)).trans (entry1_main_arg5 m ρ c)

theorem exit2_product : W7 m ρ c (Proc.devRef .tc main_v46) = SecondProduct.matProd (hiddenK m c) (m ((c.tc : Thread nD τ).loc main_arg4)) :=
  (W7_arr m ρ c 2).trans ((SecondProduct.final (V6 m ρ) c).trans
    (congrArg₂ SecondProduct.matProd (exit1_hidden m ρ c) (exit1_main_arg4 m ρ c)))
theorem exit2_sources : W7 m ρ c (Proc.devRef .tc main_v3) = Cert.Glue.sources (m ((c.tc : Thread nD τ).loc main_arg1)) :=
  (W7_of_ne m ρ c main_v3 (by decide)).trans (exit1_sources m ρ c)
theorem exit2_targets : W7 m ρ c (Proc.devRef .tc main_v6) = Cert.Glue.targets (m ((c.tc : Thread nD τ).loc main_arg1)) :=
  (W7_of_ne m ρ c main_v6 (by decide)).trans (exit1_targets m ρ c)
theorem exit2_edgeWeight : W7 m ρ c (Proc.devRef .tc main_v29) = Cert.Glue.edgeWeight (m ((c.tc : Thread nD τ).loc main_arg1)) :=
  (W7_of_ne m ρ c main_v29 (by decide)).trans (exit1_edgeWeight m ρ c)
theorem exit2_main_arg5 : W7 m ρ c (Proc.devRef .tc main_arg5) = (m ((c.tc : Thread nD τ).loc main_arg5)) :=
  (W7_of_ne m ρ c main_arg5 (by decide)).trans (exit1_main_arg5 m ρ c)

/-! ## At the last kernel's entry, and after it -/

/-- The second layer's aggregation, of the arguments. -/
abbrev layer2 : (⟨S100000x64, .f32⟩ : BufTy).Contents (Elt Ideal) :=
  Cert.Glue.aggregate64 (SecondProduct.matProd (hiddenK m c) (m ((c.tc : Thread nD τ).loc main_arg4))) (Cert.Glue.sources (m ((c.tc : Thread nD τ).loc main_arg1)))
    (Cert.Glue.targets (m ((c.tc : Thread nD τ).loc main_arg1))) (Cert.Glue.edgeWeight (m ((c.tc : Thread nD τ).loc main_arg1)))

theorem entry3_aggregate : W8 m ρ c (Proc.devRef .tc main_v59) = layer2 m c :=
  (Stretches.last_aggregate (W7 m ρ c)).trans (by
    rw [exit2_product m ρ c, exit2_sources m ρ c, exit2_targets m ρ c, exit2_edgeWeight m ρ c])
theorem entry3_bias : W8 m ρ c (Proc.devRef .tc main_v60) = shapeCast S1x64 (m ((c.tc : Thread nD τ).loc main_arg5)) shapeCasts_S64_S1x64 :=
  (Stretches.last_bias (W7 m ρ c)).trans (by rw [exit2_main_arg5 m ρ c])

/-- The result buffer at the last boundary is the kernel program's function of the six arguments. -/
theorem result : W9 m ρ c (Proc.devRef .tc main_v61)
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W9_arr m ρ c 2).trans ((LogSoftmaxRegion.final (V8 m ρ) c).trans
    (congrArg₂ LogSoftmaxRegion.biasLogSoftmax (entry3_aggregate m ρ c) (entry3_bias m ρ c)))

end Cert.KernelIdeal.Value

end
-- ==== Proof.RefStages.lean ====
/-
  The reference program's result as a composition of named stages.

  jax's reference is the same two-layer graph convolution written with plain operations: a matrix product, the aggregation
  over the edges, bias and relu, a second matrix product, the aggregation again, bias, and jax's log-softmax along the rows
  (the row maximum from -inf, once more the maximum with -inf, the shifted entries, their exponentials summed from 0, the
  logarithm of the sum subtracted).  Its result is the composition `whole` below of its six arguments (the run is read in a module of its own).
-/
import proofs.«126463_j28681791603309_1_alg».proof.Proof.Glue
import Idealize.ShloMosaic.PureOps.Ideal

noncomputable section

namespace Cert.ReferenceIdeal.Staged

open Idealize.ShloMosaic Idealize.ShloMosaic.TcCoe Idealize.SL.Sem Cert.ReferenceIdeal Cert.ReferenceIdeal.Gen

/-- features × first weights. -/
def firstProduct (x : (⟨S100000x256, .f32⟩ : BufTy).Contents (Elt Ideal)) (w : (⟨S256x128, .f32⟩ : BufTy).Contents (Elt Ideal)) : (⟨S100000x128, .f32⟩ : BufTy).Contents (Elt Ideal) :=
  Host.dotGeneral (F := Ideal) (φ₁ := .f32) (φ₂ := .f32) dot_S100000x256_S256x128_S100000x128_1_0_0_1_n_n none x w

/-- max (aggregated + bias, 0): the 128 biases spread over the rows. -/
def hidden (a : (⟨S100000x128, .f32⟩ : BufTy).Contents (Elt Ideal)) (b : (⟨S128, .f32⟩ : BufTy).Contents (Elt Ideal)) : (⟨S100000x128, .f32⟩ : BufTy).Contents (Elt Ideal) :=
  maximumf (F := Ideal) (addf (F := Ideal) a (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- hidden features × second weights. -/
def secondProduct (h : (⟨S100000x128, .f32⟩ : BufTy).Contents (Elt Ideal)) (w : (⟨S128x64, .f32⟩ : BufTy).Contents (Elt Ideal)) : (⟨S100000x64, .f32⟩ : BufTy).Contents (Elt Ideal) :=
  Host.dotGeneral (F := Ideal) (φ₁ := .f32) (φ₂ := .f32) dot_S100000x128_S128x64_S100000x64_1_0_0_1_n_n none h w

/-- aggregated + bias: the 64 biases spread over the rows. -/
def biased (a : (⟨S100000x64, .f32⟩ : BufTy).Contents (Elt Ideal)) (b : (⟨S64, .f32⟩ : BufTy).Contents (Elt Ideal)) : (⟨S100000x64, .f32⟩ : BufTy).Contents (Elt Ideal) :=
  addf (F := Ideal) (φ := .f32) a (broadcastInDim S100000x64 ![0, 1] bcast_S1x64_S100000x64_0_1 (broadcastInDim S1x64 ![1] bcast_S64_S1x64_1 b))

/-- Every row's maximum (from -inf), spread back over the row. -/
def rowMax (y : (⟨S100000x64, .f32⟩ : BufTy).Contents (Elt Ideal)) : (⟨S100000x64, .f32⟩ : BufTy).Contents (Elt Ideal) :=
  broadcastInDim S100000x64 ![0, 1] bcast_S100000x1_S100000x64_0_1 (broadcastInDim S100000x1 ![0] bcast_S100000_S100000x1_0 (maximumf (F := Ideal) (broadcastInDim S100000 ![] bcast_S_S100000 (constant (F := Ideal) S_ .f32 0xFF800000#32)) (Host.reduce (FloatOps.maximumf (F := Ideal) (φ := .f32)) y (constant (F := Ideal) S_ .f32 0xFF800000#32) reducesTo_S100000x64_S100000_d1 h_S_)))

/-- jax's log-softmax along the rows. -/
def logSoftmax (y : (⟨S100000x64, .f32⟩ : BufTy).Contents (Elt Ideal)) : (⟨S100000x64, .f32⟩ : BufTy).Contents (Elt Ideal) :=
  subf (F := Ideal) (subf (F := Ideal) y (rowMax y)) (broadcastInDim S100000x64 ![0, 1] bcast_S100000x1_S100000x64_0_1 (Host.log (F := Ideal) (broadcastInDim S100000x1 ![0] bcast_S100000_S100000x1_0 (Host.reduceAdd (F := Ideal) (Host.exp (F := Ideal) (subf (F := Ideal) y (rowMax y))) (constant (F := Ideal) S_ .f32 0x00000000#32) reducesTo_S100000x64_S100000_d1 h_S_))))

/-- The whole reference as one function of its six arguments. -/
def whole (x : (⟨S100000x256, .f32⟩ : BufTy).Contents (Elt Ideal)) (e : (⟨S2x1600000, .i32⟩ : BufTy).Contents (Elt Ideal)) (w1 : (⟨S256x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) : (⟨S100000x64, .f32⟩ : BufTy).Contents (Elt Ideal) :=
  logSoftmax (biased (Cert.Glue.aggregate64 (secondProduct (hidden (Cert.Glue.aggregate128 (firstProduct x w1)
    (Cert.Glue.sources e) (Cert.Glue.targets e) (Cert.Glue.edgeWeight e)) b1) w2)
    (Cert.Glue.sources e) (Cert.Glue.targets e) (Cert.Glue.edgeWeight e)) b2)

end Cert.ReferenceIdeal.Staged

end
-- ==== Proof.RefStagedRun.lean ====
/-
  The reference program's run, read in stages.

  Its @main is one line of 98 host operations, so its run leaves every buffer at the fold of the operations' results over
  the launch contents.  The fold is cut into five stretches — the graph part (40 operations), the first product and its
  aggregation (17), bias + relu (6), the second product and its aggregation (17), bias + log-softmax (18) — each read for ANY
  contents it is entered from, and put together: the result buffer ends at the composition `whole` of the six arguments.
-/
import proofs.«126463_j28681791603309_1_alg».proof.Proof.RefRun
import proofs.«126463_j28681791603309_1_alg».proof.Proof.RefStages
import Idealize.ShloMosaic.Lib.StableHlo.Run

set_option maxRecDepth 16384

noncomputable section

namespace Cert.ReferenceIdeal.Staged

open Idealize.ShloMosaic Idealize.ShloMosaic.TcCoe Idealize.SL.Sem Idealize.ShloMosaic.StableHlo
open Cert.ReferenceIdeal Cert.ReferenceIdeal.Gen Cert.ReferenceIdeal.ValueP

/-- Two lines run one after the other: the second folds over what the first left. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- A line cut after its first `n` operations. -/
theorem after_split (n : Nat) (l : List (HloOp τ sig (Elt Ideal))) (V : Valuation τ sig (Elt Ideal)) :
    after l V = after (l.drop n) (after (l.take n) V) := by
  rw [← after_append, List.take_append_drop]

/-- Contents carried to a typed reference's buffer and back are the contents. -/
theorem ofBuf_toBuf {T : BufTy} (x : TRef sig T) (v : T.Contents (Elt Ideal)) : x.ofBuf (x.toBuf v) = v := by
  obtain ⟨r, h, h2, h3⟩ := x
  subst h
  rfl

/-- The graph part: operations 1 … 40. -/
abbrev graphPart : List (HloOp τ sig (Elt Ideal)) := (ops (F := Ideal)).take 40
/-- The first product and its aggregation: operations 41 … 57. -/
abbrev firstLayer : List (HloOp τ sig (Elt Ideal)) := ((ops (F := Ideal)).drop 40).take 17
/-- Bias + relu: operations 58 … 63. -/
abbrev reluPart : List (HloOp τ sig (Elt Ideal)) := (((ops (F := Ideal)).drop 40).drop 17).take 6
/-- The second product and its aggregation: operations 64 … 80. -/
abbrev secondLayer : List (HloOp τ sig (Elt Ideal)) := ((((ops (F := Ideal)).drop 40).drop 17).drop 6).take 17
/-- Bias + log-softmax: operations 81 … 98. -/
abbrev softmaxPart : List (HloOp τ sig (Elt Ideal)) := ((((ops (F := Ideal)).drop 40).drop 17).drop 6).drop 17

/-- The whole line is the five stretches in order. -/
theorem after_ops (V : Valuation τ sig (Elt Ideal)) :
    after (ops (F := Ideal)) V = after softmaxPart (after secondLayer (after reluPart (after firstLayer (after graphPart V)))) := by
  rw [after_split 40 (ops (F := Ideal)) V, after_split 17 ((ops (F := Ideal)).drop 40), after_split 6 (((ops (F := Ideal)).drop 40).drop 17),
    after_split 17 ((((ops (F := Ideal)).drop 40).drop 17).drop 6)]

variable (Wv : Valuation τ sig (Elt Ideal))

/-! ## The graph part -/

theorem graphPart_sources : after graphPart Wv (Proc.devRef .tc main_v3) = Cert.Glue.sources (Wv (Proc.devRef .tc main_arg1)) := by
  simp only [graphPart, ops, List.take_succ_cons, List.take_zero, List.drop_succ_cons, List.drop_zero]
  after_results_simp <;> (try simp only [ofBuf_toBuf]) <;> rfl

theorem graphPart_targets : after graphPart Wv (Proc.devRef .tc main_v6) = Cert.Glue.targets (Wv (Proc.devRef .tc main_arg1)) := by
  simp only [graphPart, ops, List.take_succ_cons, List.take_zero, List.drop_succ_cons, List.drop_zero]
  after_results_simp <;> (try simp only [ofBuf_toBuf]) <;> rfl

/-- The graph part's first 18 operations: the edge lists, the degrees, their positivity test and inverse square roots. -/
abbrev degreePart : List (HloOp τ sig (Elt Ideal)) := (ops (F := Ideal)).take 18
/-- Its next 3: the selection of 1/sqrt(degree) where the degree is positive. -/
abbrev selectPart : List (HloOp τ sig (Elt Ideal)) := ((ops (F := Ideal)).drop 18).take 3
/-- Its last 19: the edge weights. -/
abbrev weighPart : List (HloOp τ sig (Elt Ideal)) := (((ops (F := Ideal)).drop 18).drop 3).take 19

theorem graphPart_split : graphPart = degreePart ++ (selectPart ++ weighPart) := by
  simp only [graphPart, degreePart, selectPart, weighPart, ops, List.take_succ_cons, List.take_zero, List.drop_succ_cons,
    List.drop_zero, List.cons_append, List.nil_append]

theorem degreePart_positive : after degreePart Wv (Proc.devRef .tc main_v12)
    = cmpf (F := Ideal) .ogt (Cert.Glue.degree (Wv (Proc.devRef .tc main_arg1)))
        (broadcastInDim S100000 ![] bcast_S_S100000 (constant (F := Ideal) S_ .f32 0x00000000#32)) := by
  simp only [degreePart, ops, List.take_succ_cons, List.take_zero, List.drop_succ_cons, List.drop_zero]
  after_results_simp <;> (try simp only [ofBuf_toBuf]) <;> rfl
theorem degreePart_rsqrt : after degreePart Wv (Proc.devRef .tc main_v13) = Host.rsqrt (F := Ideal) (φ := .f32) (Cert.Glue.degree (Wv (Proc.devRef .tc main_arg1))) := by
  simp only [degreePart, ops, List.take_succ_cons, List.take_zero, List.drop_succ_cons, List.drop_zero]
  after_results_simp <;> (try simp only [ofBuf_toBuf]) <;> rfl
theorem degreePart_zero : after degreePart Wv (Proc.devRef .tc main_cst_2) = constant (F := Ideal) S_ .f32 0x00000000#32 := by
  simp only [degreePart, ops, List.take_succ_cons, List.take_zero, List.drop_succ_cons, List.drop_zero]
  after_results_simp <;> (try simp only [ofBuf_toBuf]) <;> rfl
theorem degreePart_sources : after degreePart Wv (Proc.devRef .tc main_v3) = Cert.Glue.sources (Wv (Proc.devRef .tc main_arg1)) := by
  simp only [degreePart, ops, List.take_succ_cons, List.take_zero, List.drop_succ_cons, List.drop_zero]
  after_results_simp <;> (try simp only [ofBuf_toBuf]) <;> rfl
theorem degreePart_targets : after degreePart Wv (Proc.devRef .tc main_v6) = Cert.Glue.targets (Wv (Proc.devRef .tc main_arg1)) := by
  simp only [degreePart, ops, List.take_succ_cons, List.take_zero, List.drop_succ_cons, List.drop_zero]
  after_results_simp <;> (try simp only [ofBuf_toBuf]) <;> rfl

theorem selectPart_select : after selectPart Wv (Proc.devRef .tc main_v14)
    = select (Wv (Proc.devRef .tc main_v12)) (Wv (Proc.devRef .tc main_v13)) (broadcastInDim S100000 ![] bcast_S_S100000 (id (Wv (Proc.devRef .tc main_cst_2)))) := by
  simp only [selectPart, ops, List.take_succ_cons, List.take_zero, List.drop_succ_cons, List.drop_zero]
  after_results_simp <;> (try simp only [ofBuf_toBuf]) <;> rfl
theorem selectPart_main_v3 : after selectPart Wv (Proc.devRef .tc main_v3) = Wv (Proc.devRef .tc main_v3) := by
  simp only [selectPart, ops, List.take_succ_cons, List.take_zero, List.drop_succ_cons, List.drop_zero]
  after_results_simp <;> (try simp only [ofBuf_toBuf]) <;> rfl
theorem selectPart_main_v6 : after selectPart Wv (Proc.devRef .tc main_v6) = Wv (Proc.devRef .tc main_v6) := by
  simp only [selectPart, ops, List.take_succ_cons, List.take_zero, List.drop_succ_cons, List.drop_zero]
  after_results_simp <;> (try simp only [ofBuf_toBuf]) <;> rfl

theorem weighPart_weigh : after weighPart Wv (Proc.devRef .tc main_v29)
    = mulf (F := Ideal) (φ := .f32)
        (Host.gather gather_S100000_S1700000x1_S1700000_n_0_n_n_0_1_1 (Wv (Proc.devRef .tc main_v14))
          (broadcastInDim S1700000x1 ![0] bcast_S1700000_S1700000x1_0 (Cert.Glue.fromEnd (Wv (Proc.devRef .tc main_v3)))))
        (Host.gather gather_S100000_S1700000x1_S1700000_n_0_n_n_0_1_1 (Wv (Proc.devRef .tc main_v14))
          (broadcastInDim S1700000x1 ![0] bcast_S1700000_S1700000x1_0 (Cert.Glue.fromEnd (Wv (Proc.devRef .tc main_v6))))) := by
  simp only [weighPart, ops, List.take_succ_cons, List.take_zero, List.drop_succ_cons, List.drop_zero]
  after_results_simp <;> (try simp only [ofBuf_toBuf]) <;> rfl

theorem graphPart_edgeWeight : after graphPart Wv (Proc.devRef .tc main_v29) = Cert.Glue.edgeWeight (Wv (Proc.devRef .tc main_arg1)) := by
  rw [graphPart_split, after_append, after_append, weighPart_weigh, selectPart_select, selectPart_main_v3, selectPart_main_v6,
    degreePart_positive, degreePart_rsqrt, degreePart_zero, degreePart_sources, degreePart_targets]
  rfl

theorem graphPart_main_arg0 : after graphPart Wv (Proc.devRef .tc main_arg0) = Wv (Proc.devRef .tc main_arg0) := by
  simp only [graphPart, ops, List.take_succ_cons, List.take_zero, List.drop_succ_cons, List.drop_zero]
  after_results_simp <;> (try simp only [ofBuf_toBuf]) <;> rfl

theorem graphPart_main_arg2 : after graphPart Wv (Proc.devRef .tc main_arg2) = Wv (Proc.devRef .tc main_arg2) := by
  simp only [graphPart, ops, List.take_succ_cons, List.take_zero, List.drop_succ_cons, List.drop_zero]
  after_results_simp <;> (try simp only [ofBuf_toBuf]) <;> rfl

theorem graphPart_main_arg3 : after graphPart Wv (Proc.devRef .tc main_arg3) = Wv (Proc.devRef .tc main_arg3) := by
  simp only [graphPart, ops, List.take_succ_cons, List.take_zero, List.drop_succ_cons, List.drop_zero]
  after_results_simp <;> (try simp only [ofBuf_toBuf]) <;> rfl

theorem graphPart_main_arg4 : after graphPart Wv (Proc.devRef .tc main_arg4) = Wv (Proc.devRef .tc main_arg4) := by
  simp only [graphPart, ops, List.take_succ_cons, List.take_zero, List.drop_succ_cons, List.drop_zero]
  after_results_simp <;> (try simp only [ofBuf_toBuf]) <;> rfl

theorem graphPart_main_arg5 : after graphPart Wv (Proc.devRef .tc main_arg5) = Wv (Proc.devRef .tc main_arg5) := by
  simp only [graphPart, ops, List.take_succ_cons, List.take_zero, List.drop_succ_cons, List.drop_zero]
  after_results_simp <;> (try simp only [ofBuf_toBuf]) <;> rfl

/-! ## The first layer -/

theorem firstLayer_aggregate : after firstLayer Wv (Proc.devRef .tc main_v43)
    = Cert.Glue.aggregate128 (firstProduct (Wv (Proc.devRef .tc main_arg0)) (Wv (Proc.devRef .tc main_arg2))) (Wv (Proc.devRef .tc main_v3)) (Wv (Proc.devRef .tc main_v6)) (Wv (Proc.devRef .tc main_v29)) := by
  simp only [firstLayer, ops, List.take_succ_cons, List.take_zero, List.drop_succ_cons, List.drop_zero]
  after_results_simp <;> (try simp only [ofBuf_toBuf]) <;> rfl

theorem firstLayer_main_v3 : after firstLayer Wv (Proc.devRef .tc main_v3) = Wv (Proc.devRef .tc main_v3) := by
  simp only [firstLayer, ops, List.take_succ_cons, List.take_zero, List.drop_succ_cons, List.drop_zero]
  after_results_simp <;> (try simp only [ofBuf_toBuf]) <;> rfl

theorem firstLayer_main_v6 : after firstLayer Wv (Proc.devRef .tc main_v6) = Wv (Proc.devRef .tc main_v6) := by
  simp only [firstLayer, ops, List.take_succ_cons, List.take_zero, List.drop_succ_cons, List.drop_zero]
  after_results_simp <;> (try simp only [ofBuf_toBuf]) <;> rfl

theorem firstLayer_main_v29 : after firstLayer Wv (Proc.devRef .tc main_v29) = Wv (Proc.devRef .tc main_v29) := by
  simp only [firstLayer, ops, List.take_succ_cons, List.take_zero, List.drop_succ_cons, List.drop_zero]
  after_results_simp <;> (try simp only [ofBuf_toBuf]) <;> rfl

theorem firstLayer_main_arg3 : after firstLayer Wv (Proc.devRef .tc main_arg3) = Wv (Proc.devRef .tc main_arg3) := by
  simp only [firstLayer, ops, List.take_succ_cons, List.take_zero, List.drop_succ_cons, List.drop_zero]
  after_results_simp <;> (try simp only [ofBuf_toBuf]) <;> rfl

theorem firstLayer_main_arg4 : after firstLayer Wv (Proc.devRef .tc main_arg4) = Wv (Proc.devRef .tc main_arg4) := by
  simp only [firstLayer, ops, List.take_succ_cons, List.take_zero, List.drop_succ_cons, List.drop_zero]
  after_results_simp <;> (try simp only [ofBuf_toBuf]) <;> rfl

theorem firstLayer_main_arg5 : after firstLayer Wv (Proc.devRef .tc main_arg5) = Wv (Proc.devRef .tc main_arg5) := by
  simp only [firstLayer, ops, List.take_succ_cons, List.take_zero, List.drop_succ_cons, List.drop_zero]
  after_results_simp <;> (try simp only [ofBuf_toBuf]) <;> rfl

/-! ## Bias + relu -/

theorem reluPart_hidden : after reluPart Wv (Proc.devRef .tc main_v47) = hidden (Wv (Proc.devRef .tc main_v43)) (Wv (Proc.devRef .tc main_arg3)) := by
  simp only [reluPart, ops, List.take_succ_cons, List.take_zero, List.drop_succ_cons, List.drop_zero]
  after_results_simp <;> (try simp only [ofBuf_toBuf]) <;> rfl

theorem reluPart_main_v3 : after reluPart Wv (Proc.devRef .tc main_v3) = Wv (Proc.devRef .tc main_v3) := by
  simp only [reluPart, ops, List.take_succ_cons, List.take_zero, List.drop_succ_cons, List.drop_zero]
  after_results_simp <;> (try simp only [ofBuf_toBuf]) <;> rfl

theorem reluPart_main_v6 : after reluPart Wv (Proc.devRef .tc main_v6) = Wv (Proc.devRef .tc main_v6) := by
  simp only [reluPart, ops, List.take_succ_cons, List.take_zero, List.drop_succ_cons, List.drop_zero]
  after_results_simp <;> (try simp only [ofBuf_toBuf]) <;> rfl

theorem reluPart_main_v29 : after reluPart Wv (Proc.devRef .tc main_v29) = Wv (Proc.devRef .tc main_v29) := by
  simp only [reluPart, ops, List.take_succ_cons, List.take_zero, List.drop_succ_cons, List.drop_zero]
  after_results_simp <;> (try simp only [ofBuf_toBuf]) <;> rfl

theorem reluPart_main_arg4 : after reluPart Wv (Proc.devRef .tc main_arg4) = Wv (Proc.devRef .tc main_arg4) := by
  simp only [reluPart, ops, List.take_succ_cons, List.take_zero, List.drop_succ_cons, List.drop_zero]
  after_results_simp <;> (try simp only [ofBuf_toBuf]) <;> rfl

theorem reluPart_main_arg5 : after reluPart Wv (Proc.devRef .tc main_arg5) = Wv (Proc.devRef .tc main_arg5) := by
  simp only [reluPart, ops, List.take_succ_cons, List.take_zero, List.drop_succ_cons, List.drop_zero]
  after_results_simp <;> (try simp only [ofBuf_toBuf]) <;> rfl

/-! ## The second layer -/

theorem secondLayer_aggregate : after secondLayer Wv (Proc.devRef .tc main_v61)
    = Cert.Glue.aggregate64 (secondProduct (Wv (Proc.devRef .tc main_v47)) (Wv (Proc.devRef .tc main_arg4))) (Wv (Proc.devRef .tc main_v3)) (Wv (Proc.devRef .tc main_v6)) (Wv (Proc.devRef .tc main_v29)) := by
  simp only [secondLayer, ops, List.take_succ_cons, List.take_zero, List.drop_succ_cons, List.drop_zero]
  after_results_simp <;> (try simp only [ofBuf_toBuf]) <;> rfl

theorem secondLayer_main_arg5 : after secondLayer Wv (Proc.devRef .tc main_arg5) = Wv (Proc.devRef .tc main_arg5) := by
  simp only [secondLayer, ops, List.take_succ_cons, List.take_zero, List.drop_succ_cons, List.drop_zero]
  after_results_simp <;> (try simp only [ofBuf_toBuf]) <;> rfl

/-! ## Bias + log-softmax -/

/-- Its first 3 operations: the biases spread over the rows and added. -/
abbrev biasPart : List (HloOp τ sig (Elt Ideal)) := softmaxPart.take 3
/-- Its next 8: every row's maximum subtracted. -/
abbrev shiftPart : List (HloOp τ sig (Elt Ideal)) := (softmaxPart.drop 3).take 8
/-- Its last 7: the logarithm of every row's sum of exponentials subtracted. -/
abbrev logPart : List (HloOp τ sig (Elt Ideal)) := (softmaxPart.drop 3).drop 8

theorem after_softmaxPart (V : Valuation τ sig (Elt Ideal)) :
    after softmaxPart V = after logPart (after shiftPart (after biasPart V)) := by
  rw [after_split 3 softmaxPart V, after_split 8 (softmaxPart.drop 3)]

theorem biasPart_biased : after biasPart Wv (Proc.devRef .tc main_v64) = biased (Wv (Proc.devRef .tc main_v61)) (Wv (Proc.devRef .tc main_arg5)) := by
  simp only [biasPart, softmaxPart, ops, List.take_succ_cons, List.take_zero, List.drop_succ_cons, List.drop_zero]
  after_results_simp <;> (try simp only [ofBuf_toBuf]) <;> rfl

theorem shiftPart_shift : after shiftPart Wv (Proc.devRef .tc main_call2_v5)
    = subf (F := Ideal) (φ := .f32) (Wv (Proc.devRef .tc main_v64)) (rowMax (Wv (Proc.devRef .tc main_v64))) := by
  simp only [shiftPart, softmaxPart, ops, List.take_succ_cons, List.take_zero, List.drop_succ_cons, List.drop_zero]
  after_results_simp <;> (try simp only [ofBuf_toBuf]) <;> rfl

theorem logPart_result : after logPart Wv (Proc.devRef .tc main_v65)
    = subf (F := Ideal) (φ := .f32) (Wv (Proc.devRef .tc main_call2_v5))
        (broadcastInDim S100000x64 ![0, 1] bcast_S100000x1_S100000x64_0_1 (Host.log (F := Ideal) (broadcastInDim S100000x1 ![0] bcast_S100000_S100000x1_0
          (Host.reduceAdd (F := Ideal) (Host.exp (F := Ideal) (Wv (Proc.devRef .tc main_call2_v5))) (constant (F := Ideal) S_ .f32 0x00000000#32) reducesTo_S100000x64_S100000_d1 h_S_)))) := by
  simp only [logPart, softmaxPart, ops, List.take_succ_cons, List.take_zero, List.drop_succ_cons, List.drop_zero]
  after_results_simp <;> (try simp only [ofBuf_toBuf]) <;> rfl

theorem softmaxPart_result : after softmaxPart Wv (Proc.devRef .tc main_v65) = logSoftmax (biased (Wv (Proc.devRef .tc main_v61)) (Wv (Proc.devRef .tc main_arg5))) := by
  rw [after_softmaxPart, logPart_result, shiftPart_shift, biasPart_biased]
  rfl

/-! ## Together -/

/-- The result buffer after the whole line, from any contents. -/
theorem after_ops_result : after (ops (F := Ideal)) Wv (Proc.devRef .tc main_v65)
    = whole (Wv (Proc.devRef .tc main_arg0)) (Wv (Proc.devRef .tc main_arg1)) (Wv (Proc.devRef .tc main_arg2)) (Wv (Proc.devRef .tc main_arg3)) (Wv (Proc.devRef .tc main_arg4)) (Wv (Proc.devRef .tc main_arg5)) := by
  rw [after_ops, softmaxPart_result, secondLayer_aggregate, secondLayer_main_arg5, reluPart_hidden, reluPart_main_v3, reluPart_main_v6,
    reluPart_main_v29, reluPart_main_arg4, reluPart_main_arg5, firstLayer_aggregate, firstLayer_main_v3, firstLayer_main_v6,
    firstLayer_main_v29, firstLayer_main_arg3, firstLayer_main_arg4, firstLayer_main_arg5, graphPart_sources, graphPart_targets,
    graphPart_edgeWeight, graphPart_main_arg0, graphPart_main_arg2, graphPart_main_arg3, graphPart_main_arg4, graphPart_main_arg5]
  rfl

set_option maxHeartbeats 39200000 in
/-- Every weakly fair execution of the reference's @main terminates with the result buffer at `whole` of the launch
    contents of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65)
        = whole (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (after_ops_result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Staged

end
-- ==== Proof.Bridge.lean ====
/-
  The two programs compute one function.

  The kernel program's four kernels against the reference's host operations, stage by stage, on the extended reals:
  a matrix product into a zero accumulator is the host's product (both are Σ_k x (r, k) · w (k, q)); bias + relu is the
  same maximum entry by entry, the bias spread over the rows by a 1 × F matrix in one program and by two broadcasts in the
  other; and the kernel's log-softmax of a row — lane reductions for the maximum and for the sum of exponentials — is
  jax's, which takes the maximum with -inf once more and starts its sum from 0: both are
  (row q − t) − log Σ_k exp (row k − t) with t the row's maximum.  Sums are only re-indexed, never re-associated across
  infinities, so nothing here needs the inputs to be finite.  The graph part is the same functions on both sides.
-/
import proofs.«126463_j28681791603309_1_alg».proof.Proof.KernelValue
import proofs.«126463_j28681791603309_1_alg».proof.Proof.RefStages
import proofs.«126463_j28681791603309_1_alg».proof.Proof.LibLogSoftmax
import proofs.«126463_j28681791603309_1_alg».proof.Proof.LibColumns
import Idealize.ShloMosaic.Lib.ValueLayout

set_option maxRecDepth 16384

noncomputable section

open scoped BigOperators

namespace Cert.Bridge

open Idealize.ShloMosaic Idealize.ShloMosaic.TcCoe Idealize.ShloMosaic.ValueIdx

/-- The reference's first product's dimensions. -/
abbrev firstDot : DotDims Cert.ReferenceIdeal.S100000x256 Cert.ReferenceIdeal.S256x128 Cert.ReferenceIdeal.S100000x128 :=
  Cert.ReferenceIdeal.dot_S100000x256_S256x128_S100000x128_1_0_0_1_n_n

theorem first_lhs_row (i : Cert.ReferenceIdeal.S100000x128.Idx) (q : firstDot.contr.Idx) : (firstDot.lhsIdx i q 0).val = (i 0).val := by
  unfold DotDims.lhsIdx
  rw [dif_neg (show ¬(0 : Fin Cert.ReferenceIdeal.S100000x256.rank) ∈ firstDot.lhsBatch by decide),
    dif_pos (show (0 : Fin Cert.ReferenceIdeal.S100000x256.rank) ∈ firstDot.lhsNonContracting by decide)]
  rfl
theorem first_lhs_col (i : Cert.ReferenceIdeal.S100000x128.Idx) (q : firstDot.contr.Idx) : (firstDot.lhsIdx i q 1).val = (q ⟨0, by decide⟩).val :=
  firstDot.lhsIdx_val_of_single rfl i q
theorem first_rhs_row (i : Cert.ReferenceIdeal.S100000x128.Idx) (q : firstDot.contr.Idx) : (firstDot.rhsIdx i q 0).val = (q ⟨0, by decide⟩).val :=
  firstDot.rhsIdx_val_of_single rfl i q
theorem first_rhs_col (i : Cert.ReferenceIdeal.S100000x128.Idx) (q : firstDot.contr.Idx) : (firstDot.rhsIdx i q 1).val = (i 1).val := by
  unfold DotDims.rhsIdx
  rw [dif_neg (show ¬(1 : Fin Cert.ReferenceIdeal.S256x128.rank) ∈ firstDot.rhsBatch by decide),
    dif_pos (show (1 : Fin Cert.ReferenceIdeal.S256x128.rank) ∈ firstDot.rhsNonContracting by decide)]
  rfl

/-- The host's matrix product on the extended reals is the sum the kernel's blocks add up to: entry (r, q) is
    Σ_k x (r, k) · w (k, q). -/
theorem firstProduct_eq (x : (⟨Cert.ReferenceIdeal.S100000x256, .f32⟩ : BufTy).Contents (Elt Ideal)) (w : (⟨Cert.ReferenceIdeal.S256x128, .f32⟩ : BufTy).Contents (Elt Ideal)) :
    Cert.ReferenceIdeal.Staged.firstProduct x w = Cert.KernelIdeal.FirstProduct.matProd x w := by
  funext i
  unfold Cert.ReferenceIdeal.Staged.firstProduct Cert.KernelIdeal.FirstProduct.matProd
  simp only [Host.dotGeneral]
  rw [Ideal.dotGeneral_apply, ← Equiv.sum_comp (ValueIdx.contrEquiv1 firstDot 256 rfl rfl).symm]
  refine Finset.sum_congr rfl fun k _ => ?_
  have hk := ValueIdx.contrEquiv1_symm_val firstDot 256 rfl rfl k
  have el : firstDot.lhsIdx i ((ValueIdx.contrEquiv1 firstDot 256 rfl rfl).symm k)
      = ix2 (n0 := 100000) (n1 := 256) (i 0) k := funext fun a => Fin.ext (by
    match a with
    | ⟨0, _⟩ => exact first_lhs_row _ _
    | ⟨1, _⟩ => exact (first_lhs_col _ _).trans hk)
  have er : firstDot.rhsIdx i ((ValueIdx.contrEquiv1 firstDot 256 rfl rfl).symm k)
      = ix2 (n0 := 256) (n1 := 128) k (i 1) := funext fun a => Fin.ext (by
    match a with
    | ⟨0, _⟩ => exact (first_rhs_row _ _).trans hk
    | ⟨1, _⟩ => exact first_rhs_col _ _)
  rw [el, er]

/-- The reference's second product's dimensions. -/
abbrev secondDot : DotDims Cert.ReferenceIdeal.S100000x128 Cert.ReferenceIdeal.S128x64 Cert.ReferenceIdeal.S100000x64 :=
  Cert.ReferenceIdeal.dot_S100000x128_S128x64_S100000x64_1_0_0_1_n_n

theorem second_lhs_row (i : Cert.ReferenceIdeal.S100000x64.Idx) (q : secondDot.contr.Idx) : (secondDot.lhsIdx i q 0).val = (i 0).val := by
  unfold DotDims.lhsIdx
  rw [dif_neg (show ¬(0 : Fin Cert.ReferenceIdeal.S100000x128.rank) ∈ secondDot.lhsBatch by decide),
    dif_pos (show (0 : Fin Cert.ReferenceIdeal.S100000x128.rank) ∈ secondDot.lhsNonContracting by decide)]
  rfl
theorem second_lhs_col (i : Cert.ReferenceIdeal.S100000x64.Idx) (q : secondDot.contr.Idx) : (secondDot.lhsIdx i q 1).val = (q ⟨0, by decide⟩).val :=
  secondDot.lhsIdx_val_of_single rfl i q
theorem second_rhs_row (i : Cert.ReferenceIdeal.S100000x64.Idx) (q : secondDot.contr.Idx) : (secondDot.rhsIdx i q 0).val = (q ⟨0, by decide⟩).val :=
  secondDot.rhsIdx_val_of_single rfl i q
theorem second_rhs_col (i : Cert.ReferenceIdeal.S100000x64.Idx) (q : secondDot.contr.Idx) : (secondDot.rhsIdx i q 1).val = (i 1).val := by
  unfold DotDims.rhsIdx
  rw [dif_neg (show ¬(1 : Fin Cert.ReferenceIdeal.S128x64.rank) ∈ secondDot.rhsBatch by decide),
    dif_pos (show (1 : Fin Cert.ReferenceIdeal.S128x64.rank) ∈ secondDot.rhsNonContracting by decide)]
  rfl

/-- The host's matrix product on the extended reals is the sum the kernel's blocks add up to: entry (r, q) is
    Σ_k x (r, k) · w (k, q). -/
theorem secondProduct_eq (x : (⟨Cert.ReferenceIdeal.S100000x128, .f32⟩ : BufTy).Contents (Elt Ideal)) (w : (⟨Cert.ReferenceIdeal.S128x64, .f32⟩ : BufTy).Contents (Elt Ideal)) :
    Cert.ReferenceIdeal.Staged.secondProduct x w = Cert.KernelIdeal.SecondProduct.matProd x w := by
  funext i
  unfold Cert.ReferenceIdeal.Staged.secondProduct Cert.KernelIdeal.SecondProduct.matProd
  simp only [Host.dotGeneral]
  rw [Ideal.dotGeneral_apply, ← Equiv.sum_comp (ValueIdx.contrEquiv1 secondDot 128 rfl rfl).symm]
  refine Finset.sum_congr rfl fun k _ => ?_
  have hk := ValueIdx.contrEquiv1_symm_val secondDot 128 rfl rfl k
  have el : secondDot.lhsIdx i ((ValueIdx.contrEquiv1 secondDot 128 rfl rfl).symm k)
      = ix2 (n0 := 100000) (n1 := 128) (i 0) k := funext fun a => Fin.ext (by
    match a with
    | ⟨0, _⟩ => exact second_lhs_row _ _
    | ⟨1, _⟩ => exact (second_lhs_col _ _).trans hk)
  have er : secondDot.rhsIdx i ((ValueIdx.contrEquiv1 secondDot 128 rfl rfl).symm k)
      = ix2 (n0 := 128) (n1 := 64) k (i 1) := funext fun a => Fin.ext (by
    match a with
    | ⟨0, _⟩ => exact (second_rhs_row _ _).trans hk
    | ⟨1, _⟩ => exact second_rhs_col _ _)
  rw [el, er]

/-- The 128 biases spread over the rows by the host's two broadcasts: entry (r, q) is bias q. -/
theorem bias_row128 (b : (⟨Cert.ReferenceIdeal.S128, .f32⟩ : BufTy).Contents (Elt Ideal)) (j : Cert.ReferenceIdeal.S100000x128.Idx) :
    broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) j = b (ix1 (n := 128) (j 1)) :=
  (broadcastInDim_apply _ _ _ j (ix2 (n0 := 1) (n1 := 128) 0 (j 1)) (fun a => by
    match a with
    | ⟨0, _⟩ => exact (if_pos rfl).symm
    | ⟨1, _⟩ => exact (if_neg (show ¬ ((128 : Nat) = 1) by decide)).symm)).trans
  (broadcastInDim_apply _ _ b (ix2 (n0 := 1) (n1 := 128) 0 (j 1)) (ix1 (n := 128) (j 1)) (fun a => by
    match a with
    | ⟨0, _⟩ => exact (if_neg (show ¬ ((128 : Nat) = 1) by decide)).symm))

/-- The same biases re-laid as a 1 × 128 matrix (the kernel program's spelling): entry (0, q) is bias q. -/
theorem bias_cast128 (b : (⟨Cert.ReferenceIdeal.S128, .f32⟩ : BufTy).Contents (Elt Ideal)) (q : Fin 128) :
    shapeCast Cert.KernelIdeal.S1x128 b Cert.KernelIdeal.Gen.shapeCasts_S128_S1x128 (ix2 (n0 := 1) (n1 := 128) 0 q) = b (ix1 (n := 128) q) :=
  shapeCast_a_1a_apply b _ 0 q

/-- The 64 biases spread over the rows by the host's two broadcasts: entry (r, q) is bias q. -/
theorem bias_row64 (b : (⟨Cert.ReferenceIdeal.S64, .f32⟩ : BufTy).Contents (Elt Ideal)) (j : Cert.ReferenceIdeal.S100000x64.Idx) :
    broadcastInDim Cert.ReferenceIdeal.S100000x64 ![0, 1] Cert.ReferenceIdeal.Gen.bcast_S1x64_S100000x64_0_1
      (broadcastInDim Cert.ReferenceIdeal.S1x64 ![1] Cert.ReferenceIdeal.Gen.bcast_S64_S1x64_1 b) j = b (ix1 (n := 64) (j 1)) :=
  (broadcastInDim_apply _ _ _ j (ix2 (n0 := 1) (n1 := 64) 0 (j 1)) (fun a => by
    match a with
    | ⟨0, _⟩ => exact (if_pos rfl).symm
    | ⟨1, _⟩ => exact (if_neg (show ¬ ((64 : Nat) = 1) by decide)).symm)).trans
  (broadcastInDim_apply _ _ b (ix2 (n0 := 1) (n1 := 64) 0 (j 1)) (ix1 (n := 64) (j 1)) (fun a => by
    match a with
    | ⟨0, _⟩ => exact (if_neg (show ¬ ((64 : Nat) = 1) by decide)).symm))

/-- The same biases re-laid as a 1 × 64 matrix (the kernel program's spelling): entry (0, q) is bias q. -/
theorem bias_cast64 (b : (⟨Cert.ReferenceIdeal.S64, .f32⟩ : BufTy).Contents (Elt Ideal)) (q : Fin 64) :
    shapeCast Cert.KernelIdeal.S1x64 b Cert.KernelIdeal.Gen.shapeCasts_S64_S1x64 (ix2 (n0 := 1) (n1 := 64) 0 q) = b (ix1 (n := 64) q) :=
  shapeCast_a_1a_apply b _ 0 q

/-- Bias + relu: the host's maximum with a zero splat of (aggregated + spread bias) is the kernel's, entry by entry. -/
theorem hidden_eq (a : (⟨Cert.ReferenceIdeal.S100000x128, .f32⟩ : BufTy).Contents (Elt Ideal)) (b : (⟨Cert.ReferenceIdeal.S128, .f32⟩ : BufTy).Contents (Elt Ideal)) :
    Cert.ReferenceIdeal.Staged.hidden a b
      = Cert.KernelIdeal.BiasReluRegion.biasRelu a (shapeCast Cert.KernelIdeal.S1x128 b Cert.KernelIdeal.Gen.shapeCasts_S128_S1x128) := by
  funext i
  unfold Cert.ReferenceIdeal.Staged.hidden Cert.KernelIdeal.BiasReluRegion.biasRelu
  have h0 : broadcastInDim Cert.ReferenceIdeal.S100000x128 ![] Cert.ReferenceIdeal.Gen.bcast_S_S100000x128
      (constant (F := Ideal) Cert.ReferenceIdeal.S_ .f32 0x00000000#32) i = Ideal.ofBits .f32 0x00000000#32 :=
    Cert.LibColumns.broadcastInDim_scalar _ _ _ i
  show max (a i + _) _ = max (a i + _) _
  rw [h0, bias_row128 b i, bias_cast128 b (i 1)]

/-- A row of (aggregated + spread bias), in the host's spelling and in the kernel's. -/
theorem biased_row (a : (⟨Cert.ReferenceIdeal.S100000x64, .f32⟩ : BufTy).Contents (Elt Ideal)) (b : (⟨Cert.ReferenceIdeal.S64, .f32⟩ : BufTy).Contents (Elt Ideal)) (r : Fin 100000) (k : Fin 64) :
    Cert.ReferenceIdeal.Staged.biased a b (ix2 (n0 := 100000) (n1 := 64) r k)
      = a (ix2 (n0 := 100000) (n1 := 64) r k)
        + shapeCast Cert.KernelIdeal.S1x64 b Cert.KernelIdeal.Gen.shapeCasts_S64_S1x64 (ix2 (n0 := 1) (n1 := 64) 0 k) := by
  unfold Cert.ReferenceIdeal.Staged.biased
  show a _ + _ = a _ + _
  rw [bias_row64 b (ix2 (n0 := 100000) (n1 := 64) r k), bias_cast64 b k]

/-- Bias + log-softmax: jax's log-softmax of (aggregated + spread bias) is the kernel's row-wise log-softmax. -/
theorem logSoftmax_eq (a : (⟨Cert.ReferenceIdeal.S100000x64, .f32⟩ : BufTy).Contents (Elt Ideal)) (b : (⟨Cert.ReferenceIdeal.S64, .f32⟩ : BufTy).Contents (Elt Ideal)) :
    Cert.ReferenceIdeal.Staged.logSoftmax (Cert.ReferenceIdeal.Staged.biased a b)
      = Cert.KernelIdeal.LogSoftmaxRegion.biasLogSoftmax a
          (shapeCast Cert.KernelIdeal.S1x64 b Cert.KernelIdeal.Gen.shapeCasts_S64_S1x64) := by
  funext i
  refine (congrArg (Cert.ReferenceIdeal.Staged.logSoftmax (Cert.ReferenceIdeal.Staged.biased a b)) (eq_ix2 i)).trans ?_
  refine (Cert.LibLogSoftmax.lsm_host (n := 100000) (m := 64) (Cert.ReferenceIdeal.Staged.biased a b)
    Cert.ReferenceIdeal.Gen.reducesTo_S100000x64_S100000_d1 Cert.ReferenceIdeal.Gen.h_S_ (by decide)
    Cert.ReferenceIdeal.Gen.bcast_S_S100000 Cert.ReferenceIdeal.Gen.bcast_S100000_S100000x1_0
    Cert.ReferenceIdeal.Gen.bcast_S100000x1_S100000x64_0_1 (i 0) (i 1)).trans ?_
  unfold Cert.KernelIdeal.LogSoftmaxRegion.biasLogSoftmax
  exact congrArg (fun f => Cert.LibLogSoftmax.lsmRow (m := 64) f (i 1)) (funext fun k => biased_row a b (i 0) k)

/-- The kernel program's function of the six arguments is the reference's. -/
theorem whole_eq (x : (⟨Cert.ReferenceIdeal.S100000x256, .f32⟩ : BufTy).Contents (Elt Ideal)) (e : (⟨Cert.ReferenceIdeal.S2x1600000, .i32⟩ : BufTy).Contents (Elt Ideal)) (w1 : (⟨Cert.ReferenceIdeal.S256x128, .f32⟩ : BufTy).Contents (Elt Ideal)) (b1 : (⟨Cert.ReferenceIdeal.S128, .f32⟩ : BufTy).Contents (Elt Ideal))
    (w2 : (⟨Cert.ReferenceIdeal.S128x64, .f32⟩ : BufTy).Contents (Elt Ideal)) (b2 : (⟨Cert.ReferenceIdeal.S64, .f32⟩ : BufTy).Contents (Elt Ideal)) :
    Cert.ReferenceIdeal.Staged.whole x e w1 b1 w2 b2 = Cert.KernelIdeal.Value.whole x e w1 b1 w2 b2 := by
  unfold Cert.ReferenceIdeal.Staged.whole Cert.KernelIdeal.Value.whole
  rw [logSoftmax_eq, secondProduct_eq, hidden_eq, firstProduct_eq]

end Cert.Bridge

end
-- ==== Proof.lean ====
/-
  A two-layer graph convolution with a log-softmax head: a program of four kernels against plain jax.

  Both programs compute, for features x (100000 × 256), an edge list e, weights W1, W2 and biases b1, b2,
      log_softmax (A (relu (A (x W1) + b1) W2) + b2)       along the rows,
  where A gathers the rows of its argument at the edges' sources (self-loops added), scales row j by
  1/sqrt(deg source j) · 1/sqrt(deg target j), and scatter-adds into the targets.  The kernel program runs the two
  matrix products, bias + relu and bias + log-softmax as kernels over 20 blocks of 5000 rows; every one of them acts on
  each row by itself, so the blocks put together are the whole-array operation, and on the extended reals each is the
  reference's operation: a product into a zero accumulator is the product, the change of float format in front of it is the
  identity, and the two spellings of a row's log-softmax are (row q − t) − log Σ_k exp (row k − t) with t the row's
  maximum.  The graph part A, the degrees and the edge weights are the same host operations in both programs; they are
  carried as named functions and never opened.  No step moves a factor across a sum or cancels, so the inputs'
  finiteness is not used.

  The three frames: the two kernel programs' are the generated frame certificates; the reference's is its run with the
  result dropped.  The idealization rewrote no operation, so `preserves` is trivial.
-/
import proofs.«126463_j28681791603309_1_alg».proof.Defs
import proofs.«126463_j28681791603309_1_alg».proof.Proof.Gen.Kernel
import proofs.«126463_j28681791603309_1_alg».proof.Proof.Gen.Kernel.Skeleton
import proofs.«126463_j28681791603309_1_alg».proof.Proof.Gen.Kernel.Launch
import proofs.«126463_j28681791603309_1_alg».proof.Proof.Gen.Kernel.Points
import proofs.«126463_j28681791603309_1_alg».proof.Proof.Gen.Kernel.Frame
import proofs.«126463_j28681791603309_1_alg».proof.Proof.Gen.KernelIdeal
import proofs.«126463_j28681791603309_1_alg».proof.Proof.Gen.KernelIdeal.Skeleton
import proofs.«126463_j28681791603309_1_alg».proof.Proof.Gen.KernelIdeal.Launch
import proofs.«126463_j28681791603309_1_alg».proof.Proof.Gen.KernelIdeal.Points
import proofs.«126463_j28681791603309_1_alg».proof.Proof.Gen.KernelIdeal.Frame
import proofs.«126463_j28681791603309_1_alg».proof.Proof.Gen.ReferenceIdeal
import proofs.«126463_j28681791603309_1_alg».proof.Proof.Gen.Pre_finite_inputs
import proofs.«126463_j28681791603309_1_alg».proof.Proof.KernelRun
import proofs.«126463_j28681791603309_1_alg».proof.Proof.KernelValue
import proofs.«126463_j28681791603309_1_alg».proof.Proof.RefStagedRun
import proofs.«126463_j28681791603309_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Staged.run m ρ)

/-- From memories that agree on the six arguments both programs end with the result buffer at one function of them: the
    kernel program's (its run read through the four kernels) and the reference's (its run read in stages), equal stage by
    stage. -/
theorem algebraic : Cert.algebraic_KernelIdeal_ReferenceIdeal := by
  intro m ρ m' ρ' _ hagree
  refine ⟨fun c => Cert.KernelIdeal.Value.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Value.result m ρ c), (h c).2⟩)
      (Cert.KernelIdeal.Result.run_result m ρ)
  · refine (θ_run Cert.ReferenceIdeal.defs _ _).mono (fun _ h c => ⟨(h c).1.trans ?_, (h c).2⟩)
      (Cert.ReferenceIdeal.Staged.run m' ρ')
    rw [(hagree c).1, (hagree c).2.1, (hagree c).2.2.1, (hagree c).2.2.2.1, (hagree c).2.2.2.2.1, (hagree c).2.2.2.2.2]
    exact Cert.Bridge.whole_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
